-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S3072x1024 .f32) (main_arg2 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S1x512x1024 : Shape := ⟨3, ![1, 512, 1024]⟩
abbrev S512x1024 : Shape := ⟨2, ![512, 1024]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 19
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S2x2048x1024, .bf16⟩
  | .hbm, ⟨15, _⟩ => ⟨S2x2048x1024, .bf16⟩
  | .hbm, ⟨16, _⟩ => ⟨S2x2048x1024, .bf16⟩
  | .hbm, ⟨17, _⟩ => ⟨S2x2048x1024, .bf16⟩
  | .hbm, ⟨18, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x128, .bf16⟩
  | .local _ .vmem, ⟨12, _⟩ => ⟨S1x512x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x512x128, .bf16⟩
  | .local _ .vmem, ⟨18, _⟩ => ⟨S1x512x128, .bf16⟩
  | .local _ .vmem, ⟨19, _⟩ => ⟨S1x512x1024, .bf16⟩
  | .local _ .vmem, ⟨20, _⟩ => ⟨S1x512x1024, .bf16⟩
  | .local _ .vmem, ⟨21, _⟩ => ⟨S1024x1024, .bf16⟩
  | .local _ .vmem, ⟨22, _⟩ => ⟨S1x512x1024, .f32⟩
  | .local _ .vmem, ⟨23, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev main_v11_2 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![2, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![2, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  transposes_S1024x1024_S1024x1024_1_0 : S1024x1024.Transposes [1, 0] S1024x1024
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  dot_S512x1024_S1024x1024_S512x1024_1_0_0_1_n_n_wf : DotDims.WF S512x1024 S1024x1024 S512x1024 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S2x2048x1024.size a
  hwx0_4 : ∀ i : grid0.Coords, EltTy.bits .bf16 = 32 ∨ (Rect.block (s := S2x2048x1024) S1x512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S2x2048x1024.size a
  hwx0_5 : ∀ i : grid0.Coords, EltTy.bits .bf16 = 32 ∨ (Rect.block (s := S2x2048x1024) S1x512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S2x2048x1024.size a
  hwx0_6 : ∀ i : grid0.Coords, EltTy.bits .bf16 = 32 ∨ (Rect.block (s := S2x2048x1024) S1x512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S2x2048x1024.size a
  hwx1_0 : ∀ i : grid1.Coords, EltTy.bits .bf16 = 32 ∨ (Rect.block (s := S2x2048x1024) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S2x2048x1024.size a
  hwx1_1 : ∀ i : grid1.Coords, EltTy.bits .bf16 = 32 ∨ (Rect.block (s := S2x2048x1024) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S2x2048x1024.size a
  hwx1_2 : ∀ i : grid1.Coords, EltTy.bits .bf16 = 32 ∨ (Rect.block (s := S2x2048x1024) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S2x2048x1024.size a
  hwx1_3 : ∀ i : grid1.Coords, EltTy.bits .bf16 = 32 ∨ (Rect.block (s := S2x2048x1024) S1x512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S2x2048x1024.size a
  hwx2_0 : ∀ i : grid2.Coords, EltTy.bits .bf16 = 32 ∨ (Rect.block (s := S2x2048x1024) S1x512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x1024.size a ≤ S2x2048x1024.size a
  hwx2_2 : ∀ i : grid2.Coords, EltTy.bits .f32 = 32 ∨ (Rect.block (s := S2x2048x1024) S1x512x1024.size (cc2_transform_2 i) (hinb2_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S1x512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_2) S1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v11_0) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11_1) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11_2) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S2x2048x3072 : Shape := ⟨3, ![2, 2048, 3072]⟩
abbrev S2x2048x3x16x64 : Shape := ⟨5, ![2, 2048, 3, 16, 64]⟩
abbrev S3x2x2048x16x64 : Shape := ⟨5, ![3, 2, 2048, 16, 64]⟩
abbrev S1x2x2048x16x64 : Shape := ⟨5, ![1, 2, 2048, 16, 64]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S2x2048x3072, .f32⟩
  | .hbm, ⟨4, _⟩ => ⟨S2x2048x3x16x64, .f32⟩
  | .hbm, ⟨5, _⟩ => ⟨S3x2x2048x16x64, .f32⟩
  | .hbm, ⟨6, _⟩ => ⟨S1x2x2048x16x64, .f32⟩
  | .hbm, ⟨7, _⟩ => ⟨S2x2048x16x64, .f32⟩
  | .hbm, ⟨8, _⟩ => ⟨S1x2x2048x16x64, .f32⟩
  | .hbm, ⟨9, _⟩ => ⟨S2x2048x16x64, .f32⟩
  | .hbm, ⟨10, _⟩ => ⟨S1x2x2048x16x64, .f32⟩
  | .hbm, ⟨11, _⟩ => ⟨S2x2048x16x64, .f32⟩
  | .hbm, ⟨12, _⟩ => ⟨S2x16x2048x64, .f32⟩
  | .hbm, ⟨13, _⟩ => ⟨S2x16x2048x64, .f32⟩
  | .hbm, ⟨14, _⟩ => ⟨S2x16x2048x64, .f32⟩
  | .hbm, ⟨15, _⟩ => ⟨S2x16x2048x2048, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S_, .f32⟩
  | .hbm, ⟨22, _⟩ => ⟨S2x16x2048, .f32⟩
  | .hbm, ⟨23, _⟩ => ⟨S2x16x2048, .f32⟩
  | .hbm, ⟨24, _⟩ => ⟨S2x16x2048x1, .f32⟩
  | .hbm, ⟨25, _⟩ => ⟨S2x16x2048x2048, .f32⟩
  | .hbm, ⟨26, _⟩ => ⟨S2x16x2048x2048, .f32⟩
  | .hbm, ⟨27, _⟩ => ⟨S2x16x2048x2048, .f32⟩
  | .hbm, ⟨28, _⟩ => ⟨S_, .f32⟩
  | .hbm, ⟨29, _⟩ => ⟨S2x16x2048, .f32⟩
  | .hbm, ⟨30, _⟩ => ⟨S2x16x2048x1, .f32⟩
  | .hbm, ⟨31, _⟩ => ⟨S2x16x2048x2048, .f32⟩
  | .hbm, ⟨32, _⟩ => ⟨S2x16x2048x2048, .f32⟩
  | .hbm, ⟨33, _⟩ => ⟨S2x16x2048x64, .f32⟩
  | .hbm, ⟨34, _⟩ => ⟨S2x2048x16x64, .f32⟩
  | .hbm, ⟨35, _⟩ => ⟨S2x2048x1024, .f32⟩
  | .hbm, ⟨36, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]

class Facts₀ : Prop where
  shapeCasts_S2x2048x3072_S2x2048x3x16x64 : S2x2048x3072.ShapeCasts S2x2048x3x16x64
  transposes_S2x2048x3x16x64_S3x2x2048x16x64_2_0_1_3_4 : S2x2048x3x16x64.Transposes [2, 0, 1, 3, 4] S3x2x2048x16x64
  slices_S3x2x2048x16x64_S1x2x2048x16x64_0_0_0_0_0 : S3x2x2048x16x64.Slices ![0, 0, 0, 0, 0] S1x2x2048x16x64
  shapeCasts_S1x2x2048x16x64_S2x2048x16x64 : S1x2x2048x16x64.ShapeCasts S2x2048x16x64
  slices_S3x2x2048x16x64_S1x2x2048x16x64_1_0_0_0_0 : S3x2x2048x16x64.Slices ![1, 0, 0, 0, 0] S1x2x2048x16x64
  slices_S3x2x2048x16x64_S1x2x2048x16x64_2_0_0_0_0 : S3x2x2048x16x64.Slices ![2, 0, 0, 0, 0] S1x2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.Spec.lean ====
/-
  Multi-head self-attention over the extended reals, as one function of the three argument arrays.

  With x : [2, 2048, 1024], the fused weight w : [3072, 1024] and the output weight p : [1024, 1024]:
    Q, K, V [b, n, j]  =  ∑ c, x[b, n, c] · w[1024·t + j, c]            (t = 0, 1, 2)
    column j belongs to head h = j / 64 (sixteen heads of sixty-four columns);
    s(k)   =  (∑ d, Q[b, n, 64h + d] · K[b, k, 64h + d]) · (1/8)        the scores of query row n against every key row k
    m      =  max(-∞, max_k s(k)),   e(k) = exp(s(k) − m),   a(k) = e(k) / ∑ k', e(k')
    A[b, n, j]  =  ∑ k, a(k) · V[b, k, j]
    out[b, n, o] =  ∑ j, A[b, n, j] · p[o, j].
  The softmax-weighted average of ONE query row is stated over plain coordinate functions (`head`), so that a block of
  rows, the whole array, and an array laid out head-major all read it at their own coordinates.
-/
import Idealize.ShloMosaic.PureOps.Ideal
import Idealize.ShloMosaic.Lib.ValueIdx

noncomputable section

open scoped BigOperators

namespace Cert.Attention

open Idealize.ShloMosaic Idealize.ShloMosaic.ValueIdx

/-- The scale 1/8 = 64^(-1/2), as the float word both programs carry. -/
abbrev scale : EReal := Ideal.ofBits .f32 0x3E000000#32
/-- The word of -∞ a running maximum starts from. -/
abbrev negInf : EReal := Ideal.ofBits .f32 0xFF800000#32

variable {n : Nat}

/-- The largest score of a row, started from -∞ (and joined with -∞ once more, as both programs do). -/
def rowmax (s : Fin n → EReal) : EReal := max negInf ((Finset.univ : Finset (Fin n)).fold max negInf s)

/-- The unnormalised weight of key `k`: the exponential of its score less the row's largest. -/
def wexp (s : Fin n → EReal) (k : Fin n) : EReal := Ideal.exp (s k - rowmax s)

/-- The softmax weight of key `k`. -/
def smax (s : Fin n → EReal) (k : Fin n) : EReal := Ideal.div (wexp s k) (∑ k' : Fin n, wexp s k')

/-- The score of a query row against key row `k`: their inner product over the head's columns, scaled. -/
def score {dh : Nat} (q : Fin dh → EReal) (km : Fin n → Fin dh → EReal) (k : Fin n) : EReal :=
  (∑ d : Fin dh, q d * km k d) * scale

/-- One entry of one head's output: the softmax-weighted average of a value column. -/
def head {dh : Nat} (q : Fin dh → EReal) (km : Fin n → Fin dh → EReal) (vc : Fin n → EReal) : EReal :=
  ∑ k : Fin n, smax (score q km) k * vc k

/-- Column `64·h + d`: lane `d` of head `h`. -/
def col (h : Fin 16) (d : Fin 64) : Fin 1024 := ⟨64 * h.val + d.val, by have := h.isLt; have := d.isLt; omega⟩
/-- The head a column belongs to. -/
def headOf (j : Fin 1024) : Fin 16 := ⟨j.val / 64, by have := j.isLt; omega⟩
/-- Row `1024·t + j` of the fused weight: row `j` of its `t`-th third. -/
def wrow (t : Fin 3) (j : Fin 1024) : Fin 3072 := ⟨1024 * t.val + j.val, by have := t.isLt; have := j.isLt; omega⟩

/-- Inside a 128-column slab holding two heads side by side: lane `d` of the head that column `c` belongs to. -/
def lane (c : Fin 128) (d : Fin 64) : Fin 128 := ⟨64 * (c.val / 64) + d.val, by have := c.isLt; have := d.isLt; omega⟩

abbrev Act : Type := (⟨3, ![2, 2048, 1024]⟩ : Shape).Idx → EReal
abbrev Sq : Type := (⟨2, ![1024, 1024]⟩ : Shape).Idx → EReal
abbrev Fused : Type := (⟨2, ![3072, 1024]⟩ : Shape).Idx → EReal

/-- A dense layer against a weight laid out [in, out]: `∑ c, X[b, n, c] · W[c, o]`. -/
def dense (X : Act) (W : Sq) : Act := fun i => ∑ c : Fin 1024, X (ix3 (i 0) (i 1) c) * W (ix2 c (i 2))

/-- Attention over arrays laid out [batch, row, 64·head + lane]. -/
def attn (Q K V : Act) : Act := fun i =>
  head (fun d => Q (ix3 (i 0) (i 1) (col (headOf (i 2)) d)))
    (fun k d => K (ix3 (i 0) k (col (headOf (i 2)) d)))
    (fun k => V (ix3 (i 0) k (i 2)))

/-- The `t`-th third of the fused weight, transposed to [in, out]. -/
def third (w : Fused) (t : Fin 3) : Sq := fun i => w (ix2 (wrow t (i 1)) (i 0))
/-- A square weight transposed. -/
def tr (p : Sq) : Sq := fun i => p (ix2 (i 1) (i 0))

/-- The whole layer. -/
def layer (x : Act) (w : Fused) (p : Sq) : Act :=
  dense (attn (dense x (third w 0)) (dense x (third w 1)) (dense x (third w 2))) (tr p)

end Cert.Attention

end
-- ==== Proof.ValueRun.lean ====
/-
  The idealized program's run with its result named. The program is a stretch of host operations followed by three
  pipelined regions; after the last region every unscoped buffer holds the last boundary's contents, so the result
  buffer holds what the third region's write-backs leave, and the three argument arrays are as launched.
-/
import proofs.«173302_j45131516346804_1_alg».proof.Proof.Gen.KernelIdeal.Frame

set_option maxRecDepth 16384

noncomputable section

namespace Cert.Attention.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and
    the arguments end as launched. -/
theorem run : θ_run defs (onTc (τ := τ) (main (F := F))) ⟨m, fun _ => 0, ρ⟩ (fun r => ∀ c : Dev nD,
      r.2.mem ((c.tc : Thread nD τ).loc main_v13) = W4 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v13 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.Attention.Run

end
-- ==== Proof.Weights.lean ====
/-
  The weight operands as the regions find them. Before the first region the program cuts the fused weight into its
  three thirds of 1024 rows, transposes each third and the output weight, and changes their float format (the identity
  over the extended reals): entry (c, o) of the t-th operand is entry (1024·t + o, c) of the fused weight, and entry
  (c, o) of the last operand is entry (o, c) of the output weight.
-/
import proofs.«173302_j45131516346804_1_alg».proof.Proof.Gen.KernelIdeal.Frame
import proofs.«173302_j45131516346804_1_alg».proof.Proof.Spec
import Idealize.ShloMosaic.Lib.ValueLayout
import Idealize.ShloMosaic.Lib.Pipeline.Value
import Idealize.ShloMosaic.Lib.StableHlo.Run

noncomputable section

namespace Cert.Attention.Weights

open Cert.KernelIdeal Cert.KernelIdeal.Gen
open Idealize.ShloMosaic Idealize.ShloMosaic.ValueIdx Idealize.ShloMosaic.TcCoe Idealize.SL.Sem Idealize.ShloMosaic.StableHlo

/-- Rows `off … off + 1023` of the fused weight, transposed, at entry (c, o): the fused weight at (off + o, c). -/
theorem third_apply (w : S3072x1024.Idx → EReal) (off : Nat) (t : Fin 3) (hoff : off = 1024 * t.val)
    (hs : S3072x1024.Slices ![off, 0] S1024x1024) (ht : S1024x1024.Transposes [1, 0] S1024x1024)
    (hb : FTy.bf16.bits < FTy.f32.bits) (c o : Fin 1024) :
    (truncf (F := Ideal) .bf16 (transpose S1024x1024 [1, 0] (extractStridedSlice S1024x1024 ![off, 0] w hs) ht) hb :
      S1024x1024.Idx → EReal) (ix2 c o) = third w t (ix2 c o) := by
  show transpose S1024x1024 [1, 0] (extractStridedSlice S1024x1024 ![off, 0] w hs) ht (ix2 c o) = _
  refine (transpose_ix2_apply _ ht c o).trans ?_
  exact slice2_axis0_apply off w hs o c (wrow t o) (by subst hoff; rfl)

/-- The output weight transposed, at entry (c, o): the output weight at (o, c). -/
theorem tr_apply (p : S1024x1024.Idx → EReal) (ht : S1024x1024.Transposes [1, 0] S1024x1024)
    (hb : FTy.bf16.bits < FTy.f32.bits) (c o : Fin 1024) :
    (truncf (F := Ideal) .bf16 (transpose S1024x1024 [1, 0] p ht) hb : S1024x1024.Idx → EReal) (ix2 c o) = tr p (ix2 c o) := by
  show transpose S1024x1024 [1, 0] p ht (ix2 c o) = _
  exact transpose_ix2_apply _ ht c o

variable (m : (ℓ : Loc nD τ sig) → Buf (Elt Ideal) ℓ) (ρ : Dev nD → PrngReg)

/-- The first region's query-weight operand is the first third of the fused weight, laid out [in, out]. -/
theorem wq_eq (c : Dev nD) :
    (V1 m ρ c main_v4 : S1024x1024.Idx → EReal) = third (m ((c.tc : Thread nD τ).loc main_arg1)) 0 := by
  have e : (V1 m ρ c main_v4 : S1024x1024.Idx → EReal) = (truncf (F := Ideal) .bf16 (transpose S1024x1024 [1, 0]
      (extractStridedSlice S1024x1024 ![0, 0] (m ((c.tc : Thread nD τ).loc main_arg1) : S3072x1024.Idx → EReal)
        slices_S3072x1024_S1024x1024_0_0) transposes_S1024x1024_S1024x1024_1_0) bitsLt_bf16_f32 : S1024x1024.Idx → EReal) := by
    show StableHlo.after hostOps0 (W0 m ρ c) (Proc.devRef .tc main_v4) = _
    after_results
  rw [e]
  funext i
  obtain ⟨a, b, rfl⟩ : ∃ (a b : Fin 1024), i = ix2 a b := ⟨i 0, i 1, eq_ix2 i⟩
  exact third_apply _ 0 0 rfl _ _ _ a b

/-- Its key-weight operand is the second third. -/
theorem wk_eq (c : Dev nD) :
    (V1 m ρ c main_v6 : S1024x1024.Idx → EReal) = third (m ((c.tc : Thread nD τ).loc main_arg1)) 1 := by
  have e : (V1 m ρ c main_v6 : S1024x1024.Idx → EReal) = (truncf (F := Ideal) .bf16 (transpose S1024x1024 [1, 0]
      (extractStridedSlice S1024x1024 ![1024, 0] (m ((c.tc : Thread nD τ).loc main_arg1) : S3072x1024.Idx → EReal)
        slices_S3072x1024_S1024x1024_1024_0) transposes_S1024x1024_S1024x1024_1_0) bitsLt_bf16_f32 : S1024x1024.Idx → EReal) := by
    show StableHlo.after hostOps0 (W0 m ρ c) (Proc.devRef .tc main_v6) = _
    after_results
  rw [e]
  funext i
  obtain ⟨a, b, rfl⟩ : ∃ (a b : Fin 1024), i = ix2 a b := ⟨i 0, i 1, eq_ix2 i⟩
  exact third_apply _ 1024 1 rfl _ _ _ a b

/-- Its value-weight operand is the last third. -/
theorem wv_eq (c : Dev nD) :
    (V1 m ρ c main_v8 : S1024x1024.Idx → EReal) = third (m ((c.tc : Thread nD τ).loc main_arg1)) 2 := by
  have e : (V1 m ρ c main_v8 : S1024x1024.Idx → EReal) = (truncf (F := Ideal) .bf16 (transpose S1024x1024 [1, 0]
      (extractStridedSlice S1024x1024 ![2048, 0] (m ((c.tc : Thread nD τ).loc main_arg1) : S3072x1024.Idx → EReal)
        slices_S3072x1024_S1024x1024_2048_0) transposes_S1024x1024_S1024x1024_1_0) bitsLt_bf16_f32 : S1024x1024.Idx → EReal) := by
    show StableHlo.after hostOps0 (W0 m ρ c) (Proc.devRef .tc main_v8) = _
    after_results
  rw [e]
  funext i
  obtain ⟨a, b, rfl⟩ : ∃ (a b : Fin 1024), i = ix2 a b := ⟨i 0, i 1, eq_ix2 i⟩
  exact third_apply _ 2048 2 rfl _ _ _ a b

/-- The last region's weight operand is the output weight transposed. -/
theorem wp_eq (c : Dev nD) :
    (V1 m ρ c main_v10 : S1024x1024.Idx → EReal) = tr (m ((c.tc : Thread nD τ).loc main_arg2)) := by
  have e : (V1 m ρ c main_v10 : S1024x1024.Idx → EReal) = (truncf (F := Ideal) .bf16 (transpose S1024x1024 [1, 0]
      (m ((c.tc : Thread nD τ).loc main_arg2) : S1024x1024.Idx → EReal) transposes_S1024x1024_S1024x1024_1_0)
        bitsLt_bf16_f32 : S1024x1024.Idx → EReal) := by
    show StableHlo.after hostOps0 (W0 m ρ c) (Proc.devRef .tc main_v10) = _
    after_results
  rw [e]
  funext i
  obtain ⟨a, b, rfl⟩ : ∃ (a b : Fin 1024), i = ix2 a b := ⟨i 0, i 1, eq_ix2 i⟩
  exact tr_apply _ _ _ a b

/-- The activations reach the first region as launched. -/
theorem x_eq (c : Dev nD) :
    (V1 m ρ c main_arg0 : S2x2048x1024.Idx → EReal) = m ((c.tc : Thread nD τ).loc main_arg0) := by
  show StableHlo.after hostOps0 (W0 m ρ c) (Proc.devRef .tc main_arg0) = _
  after_results

end Cert.Attention.Weights

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.DensePoint.lean ====
/-
  One grid point of a projection kernel: a block of 512 rows of the activations, cast to a matrix, times a whole
  [1024, 1024] weight laid out [in, out], accumulated from zero, is at entry (r, o) the inner product of row r with
  column o. A change of float format is the identity over the extended reals, and the casts that drop and restore the
  unit batch axis only rename the entry.
-/
import proofs.«173302_j45131516346804_1_alg».proof.Proof.Gen.KernelIdeal.Frame
import proofs.«173302_j45131516346804_1_alg».proof.Proof.LibMatProd
import Idealize.ShloMosaic.Lib.ValueLayout
import Idealize.ShloMosaic.Lib.Pipeline.Value

noncomputable section

open scoped BigOperators

namespace Cert.Attention.Dense

open Cert.KernelIdeal Cert.KernelIdeal.Gen
open Idealize.ShloMosaic Idealize.ShloMosaic.ValueIdx

theorem zeros3 : (![0, 0, 0] : Fin 3 → Nat) = fun _ => 0 := funext fun a => by fin_cases a <;> rfl
theorem zeros2 : (![0, 0] : Fin 2 → Nat) = fun _ => 0 := funext fun a => by fin_cases a <;> rfl

/-- The block product at an entry. -/
theorem product_apply {φ₁ φ₂ : FTy} (a : FVec Ideal S512x1024 φ₁) (w : FVec Ideal S1024x1024 φ₂) (r : Fin 512) (o : Fin 1024) :
    matmul dot_S512x1024_S1024x1024_S512x1024_1_0_0_1_n_n none a w (constant S512x1024 .f32 0x00000000#32) (ix2 r o)
      = ∑ c : Fin 1024, a (ix2 r c) * w (ix2 c o) :=
  Cert.MatProd.matmul_plain_zero_apply (M := 512) (K := 1024) (N := 1024) none a w r o

/-- The query / key / value projections' stored block at entry (0, r, o). -/
theorem proj_apply (x : Vec Ideal S1x512x1024 .f32) (w : Vec Ideal S1024x1024 .bf16) (r : Fin 512) (o : Fin 1024) :
    k0_pay2 (F := Ideal) x w (ix3 0 r o) = ∑ c : Fin 1024, x (ix3 0 r c) * w (ix2 c o) := by
  unfold k0_pay2 k0_pay1
  dsimp only
  refine (shapeCast_ab_1ab_apply _ _ 0 r o).trans ?_
  refine (product_apply _ _ r o).trans ?_
  refine Finset.sum_congr rfl fun c _ => ?_
  rw [shapeCast_self]
  exact congrArg (· * w (ix2 c o)) (shapeCast_1ab_ab_apply x _ r c)

theorem proj_apply' (x : Vec Ideal S1x512x1024 .f32) (w : Vec Ideal S1024x1024 .bf16) (r : Fin 512) (o : Fin 1024) :
    k0_pay3 (F := Ideal) x w (ix3 0 r o) = ∑ c : Fin 1024, x (ix3 0 r c) * w (ix2 c o) := by
  unfold k0_pay3 k0_pay1
  dsimp only
  refine (shapeCast_ab_1ab_apply _ _ 0 r o).trans ?_
  refine (product_apply _ _ r o).trans ?_
  refine Finset.sum_congr rfl fun c _ => ?_
  rw [shapeCast_self]
  exact congrArg (· * w (ix2 c o)) (shapeCast_1ab_ab_apply x _ r c)

theorem proj_apply'' (x : Vec Ideal S1x512x1024 .f32) (w : Vec Ideal S1024x1024 .bf16) (r : Fin 512) (o : Fin 1024) :
    k0_pay4 (F := Ideal) x w (ix3 0 r o) = ∑ c : Fin 1024, x (ix3 0 r c) * w (ix2 c o) := by
  unfold k0_pay4 k0_pay1
  dsimp only
  refine (shapeCast_ab_1ab_apply _ _ 0 r o).trans ?_
  refine (product_apply _ _ r o).trans ?_
  refine Finset.sum_congr rfl fun c _ => ?_
  rw [shapeCast_self]
  exact congrArg (· * w (ix2 c o)) (shapeCast_1ab_ab_apply x _ r c)

/-- The output projection's stored block at entry (0, r, o). -/
theorem outproj_apply (x : Vec Ideal S1x512x1024 .bf16) (w : Vec Ideal S1024x1024 .bf16) (r : Fin 512) (o : Fin 1024) :
    k2_pay1 (F := Ideal) x w (ix3 0 r o) = ∑ c : Fin 1024, x (ix3 0 r c) * w (ix2 c o) := by
  unfold k2_pay1
  refine (shapeCast_ab_1ab_apply _ _ 0 r o).trans ?_
  refine (product_apply _ _ r o).trans ?_
  refine Finset.sum_congr rfl fun c _ => ?_
  rw [shapeCast_self]
  exact congrArg (· * w (ix2 c o)) (shapeCast_1ab_ab_apply x _ r c)

/-! What each output window's staging buffer holds after the body, at entry (0, r, o): the body loads whole buffers
    and stores once through the whole rectangle. -/

theorem q_block_apply (x0 : Vec Ideal S1x512x1024 .f32) (x1 x2 x3 : Vec Ideal S1024x1024 .bf16) (r : Fin 512) (o : Fin 1024) :
    out0_4 (F := Ideal) x0 x1 x2 x3 (ix3 0 r o) = ∑ c : Fin 1024, x0 (ix3 0 r c) * x1 (ix2 c o) := by
  unfold out0_4
  rw [View.canon_unit_zero zeros3]
  simp only [View.ld_unit_zero (S := S1x512x1024) zeros3, View.ld_unit_zero (S := S1024x1024) zeros2]
  exact proj_apply x0 x1 r o

theorem k_block_apply (x0 : Vec Ideal S1x512x1024 .f32) (x1 x2 x3 : Vec Ideal S1024x1024 .bf16) (r : Fin 512) (o : Fin 1024) :
    out0_5 (F := Ideal) x0 x1 x2 x3 (ix3 0 r o) = ∑ c : Fin 1024, x0 (ix3 0 r c) * x2 (ix2 c o) := by
  unfold out0_5
  rw [View.canon_unit_zero zeros3]
  simp only [View.ld_unit_zero (S := S1x512x1024) zeros3, View.ld_unit_zero (S := S1024x1024) zeros2]
  exact proj_apply' x0 x2 r o

theorem v_block_apply (x0 : Vec Ideal S1x512x1024 .f32) (x1 x2 x3 : Vec Ideal S1024x1024 .bf16) (r : Fin 512) (o : Fin 1024) :
    out0_6 (F := Ideal) x0 x1 x2 x3 (ix3 0 r o) = ∑ c : Fin 1024, x0 (ix3 0 r c) * x3 (ix2 c o) := by
  unfold out0_6
  rw [View.canon_unit_zero zeros3]
  simp only [View.ld_unit_zero (S := S1x512x1024) zeros3, View.ld_unit_zero (S := S1024x1024) zeros2]
  exact proj_apply'' x0 x3 r o

theorem o_block_apply (x0 : Vec Ideal S1x512x1024 .bf16) (x1 : Vec Ideal S1024x1024 .bf16) (r : Fin 512) (o : Fin 1024) :
    out2_2 (F := Ideal) x0 x1 (ix3 0 r o) = ∑ c : Fin 1024, x0 (ix3 0 r c) * x1 (ix2 c o) := by
  unfold out2_2
  rw [View.canon_unit_zero zeros3]
  simp only [View.ld_unit_zero (S := S1x512x1024) zeros3, View.ld_unit_zero (S := S1024x1024) zeros2]
  exact outproj_apply x0 x1 r o

/-! The same at any index of the block: row `j 1`, column `j 2`. -/

theorem q_block (x0 : Vec Ideal S1x512x1024 .f32) (x1 x2 x3 : Vec Ideal S1024x1024 .bf16) (j : S1x512x1024.Idx) :
    out0_4 (F := Ideal) x0 x1 x2 x3 j = ∑ c : Fin 1024, x0 (ix3 0 (j 1) c) * x1 (ix2 c (j 2)) := by
  obtain ⟨u, r, o, rfl⟩ : ∃ (u : Fin 1) (r : Fin 512) (o : Fin 1024), j = ix3 u r o := ⟨j 0, j 1, j 2, eq_ix3 j⟩
  obtain rfl : u = 0 := Subsingleton.elim _ _
  exact q_block_apply x0 x1 x2 x3 r o

theorem k_block (x0 : Vec Ideal S1x512x1024 .f32) (x1 x2 x3 : Vec Ideal S1024x1024 .bf16) (j : S1x512x1024.Idx) :
    out0_5 (F := Ideal) x0 x1 x2 x3 j = ∑ c : Fin 1024, x0 (ix3 0 (j 1) c) * x2 (ix2 c (j 2)) := by
  obtain ⟨u, r, o, rfl⟩ : ∃ (u : Fin 1) (r : Fin 512) (o : Fin 1024), j = ix3 u r o := ⟨j 0, j 1, j 2, eq_ix3 j⟩
  obtain rfl : u = 0 := Subsingleton.elim _ _
  exact k_block_apply x0 x1 x2 x3 r o

theorem v_block (x0 : Vec Ideal S1x512x1024 .f32) (x1 x2 x3 : Vec Ideal S1024x1024 .bf16) (j : S1x512x1024.Idx) :
    out0_6 (F := Ideal) x0 x1 x2 x3 j = ∑ c : Fin 1024, x0 (ix3 0 (j 1) c) * x3 (ix2 c (j 2)) := by
  obtain ⟨u, r, o, rfl⟩ : ∃ (u : Fin 1) (r : Fin 512) (o : Fin 1024), j = ix3 u r o := ⟨j 0, j 1, j 2, eq_ix3 j⟩
  obtain rfl : u = 0 := Subsingleton.elim _ _
  exact v_block_apply x0 x1 x2 x3 r o

theorem o_block (x0 : Vec Ideal S1x512x1024 .bf16) (x1 : Vec Ideal S1024x1024 .bf16) (j : S1x512x1024.Idx) :
    out2_2 (F := Ideal) x0 x1 j = ∑ c : Fin 1024, x0 (ix3 0 (j 1) c) * x1 (ix2 c (j 2)) := by
  obtain ⟨u, r, o, rfl⟩ : ∃ (u : Fin 1) (r : Fin 512) (o : Fin 1024), j = ix3 u r o := ⟨j 0, j 1, j 2, eq_ix3 j⟩
  obtain rfl : u = 0 := Subsingleton.elim _ _
  exact o_block_apply x0 x1 r o

end Cert.Attention.Dense

end
-- ==== Proof.ProjArrays.lean ====
/-
  The query, key and value arrays after the first region. Grid point (b, i) of the 2 x 4 grid writes rows
  512·i … 512·i + 511 of batch b of each of the three arrays; the blocks tile the [2, 2048, 1024] array, and each is
  that range of rows of one whole-array function — a dense layer of the activations against the weight operand — so
  each array ends holding that function.
-/
import proofs.«173302_j45131516346804_1_alg».proof.Proof.Gen.KernelIdeal.Frame
import proofs.«173302_j45131516346804_1_alg».proof.Proof.Spec
import proofs.«173302_j45131516346804_1_alg».proof.Proof.DensePoint
import Idealize.ShloMosaic.Lib.Pipeline.Value

set_option maxRecDepth 16384

noncomputable section

open scoped BigOperators

namespace Cert.Attention.Arrays

open Cert.KernelIdeal Cert.KernelIdeal.Gen
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The printed index maps, decided over the eight grid points: the row block of the input moves with the output block,
    the weight stays at block (0, 0), and the output's block indices stay in range. -/
theorem q_idx : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_1.index t (0 : Fin 2) = 0 ∧ win0_1.index t (1 : Fin 2) = 0
    ∧ win0_4.index t (0 : Fin 3) ≤ 1 ∧ win0_4.index t (1 : Fin 3) ≤ 3 :=
  (by decide +kernel : ∀ t : Fin grid0.N, _)

/-- Every block of the array is some grid point's. -/
theorem q_onto : ∀ (q0 : Fin 2) (q1 : Fin 4), ∃ t : Fin cfg0.N, win0_4.index t = ![q0.val, q1.val, 0] :=
  (by decide +kernel : ∀ (q0 : Fin 2) (q1 : Fin 4), ∃ t : Fin grid0.N, win0_4.index t = ![q0.val, q1.val, 0])

/-- What grid point `t` writes back to the query array is block `t` of the dense layer of the region's row operand against its
    weight operand. -/
theorem q_flushed (c : Dev nD) (t : Fin cfg0.N) :
    (dat0 V c).flushed 4 t = ((cfg0.win 4).blk t).view.read (Elt Ideal)
      (dense (V c main_arg0 : S2x2048x1024.Idx → EReal) (V c main_v4 : S1024x1024.Idx → EReal)) := by
  show (cfg0.win 4).cut (grid0.coords t) ((dat0 V c).after 4 t) = _
  rw [after0_4]
  obtain ⟨e0, e1, e2, e3, e4, e5, e6, e7⟩ := q_idx t
  funext j
  show out0_4 (iblk0 V c 0 t) (iblk0 V c 1 t) (iblk0 V c 2 t) (iblk0 V c 3 t) j
    = dense (V c main_arg0 : S2x2048x1024.Idx → EReal) (V c main_v4 : S1024x1024.Idx → EReal) (((cfg0.win 4).blk t).view.emb j)
  rw [Dense.q_block]
  unfold dense
  refine Finset.sum_congr rfl fun c' _ => ?_
  have h0 : ((cfg0.win 0).blk t).view.emb (ix3 0 (j 1) c')
      = ix3 ((((cfg0.win 4).blk t).view.emb j) 0) ((((cfg0.win 4).blk t).view.emb j) 1) c' := by
    funext a; apply Fin.ext
    match a with
    | ⟨0, _⟩ => show win0_0.index t (0 : Fin 3) * 1 + 1 * 0 = win0_4.index t (0 : Fin 3) * 1 + 1 * (j 0).val; have hj : (j 0).val < 1 := (j 0).isLt; omega
    | ⟨1, _⟩ => show win0_0.index t (1 : Fin 3) * 512 + 1 * (j 1).val = win0_4.index t (1 : Fin 3) * 512 + 1 * (j 1).val; omega
    | ⟨2, _⟩ => show win0_0.index t (2 : Fin 3) * 1024 + 1 * c'.val = c'.val; omega
  have h1 : ((cfg0.win 1).blk t).view.emb (ix2 c' (j 2)) = ix2 c' ((((cfg0.win 4).blk t).view.emb j) 2) := by
    funext a; apply Fin.ext
    match a with
    | ⟨0, _⟩ => show win0_1.index t (0 : Fin 2) * 1024 + 1 * c'.val = c'.val; omega
    | ⟨1, _⟩ => show win0_1.index t (1 : Fin 2) * 1024 + 1 * (j 2).val = win0_4.index t (2 : Fin 3) * 1024 + 1 * (j 2).val; omega
  exact congrArg₂ (· * ·) (congrArg (V c main_arg0 : S2x2048x1024.Idx → EReal) h0) (congrArg (V c main_v4 : S1024x1024.Idx → EReal) h1)

/-- An index of the array is in point `t`'s block iff each coordinate is in the block's range on its axis. -/
theorem q_mem (t : Fin cfg0.N) (i : S2x2048x1024.Idx) :
    i ∈ ((cfg0.win 4).blk t).view.set ↔ ∀ a : Fin 3, win0_4.index t a * S1x512x1024.size a ≤ (i a).val
      ∧ (i a).val < win0_4.index t a * S1x512x1024.size a + S1x512x1024.size a := by
  show i ∈ ((View.whole main_v11_0).slice (win0_4.rect t)).set ↔ _
  rw [View.set_slice_whole, Rect.mem_set_unit]
  exact Iff.rfl

/-- Row `n` of batch `b` is in the block of grid point (b, n / 512). -/
theorem q_cover (i : S2x2048x1024.Idx) : ∃ t : Fin cfg0.N, (cfg0.win 4).flush t = true ∧ i ∈ ((cfg0.win 4).blk t).view.set := by
  have hi0 : (i 0).val < 2 := (i 0).isLt
  have hi1 : (i 1).val < 2048 := (i 1).isLt
  have hi2 : (i 2).val < 1024 := (i 2).isLt
  obtain ⟨t, ht⟩ := q_onto ⟨(i 0).val, by omega⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [q_mem]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- The query array after the region. -/
theorem q_array (c : Dev nD) :
    (dat0 V c).arrAt 4 cfg0.N = dense (V c main_arg0 : S2x2048x1024.Idx → EReal) (V c main_v4 : S1024x1024.Idx → EReal) :=
  (dat0 V c).arrAt_eq_of_cover 4 _ (fun t _ => q_flushed V c t) q_cover

/-- The printed index maps, decided over the eight grid points: the row block of the input moves with the output block,
    the weight stays at block (0, 0), and the output's block indices stay in range. -/
theorem k_idx : ∀ t : Fin cfg0.N,
    win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_2.index t (0 : Fin 2) = 0 ∧ win0_2.index t (1 : Fin 2) = 0
    ∧ win0_5.index t (0 : Fin 3) ≤ 1 ∧ win0_5.index t (1 : Fin 3) ≤ 3 :=
  (by decide +kernel : ∀ t : Fin grid0.N, _)

/-- Every block of the array is some grid point's. -/
theorem k_onto : ∀ (q0 : Fin 2) (q1 : Fin 4), ∃ t : Fin cfg0.N, win0_5.index t = ![q0.val, q1.val, 0] :=
  (by decide +kernel : ∀ (q0 : Fin 2) (q1 : Fin 4), ∃ t : Fin grid0.N, win0_5.index t = ![q0.val, q1.val, 0])

/-- What grid point `t` writes back to the key array is block `t` of the dense layer of the region's row operand against its
    weight operand. -/
theorem k_flushed (c : Dev nD) (t : Fin cfg0.N) :
    (dat0 V c).flushed 5 t = ((cfg0.win 5).blk t).view.read (Elt Ideal)
      (dense (V c main_arg0 : S2x2048x1024.Idx → EReal) (V c main_v6 : S1024x1024.Idx → EReal)) := by
  show (cfg0.win 5).cut (grid0.coords t) ((dat0 V c).after 5 t) = _
  rw [after0_5]
  obtain ⟨e0, e1, e2, e3, e4, e5, e6, e7⟩ := k_idx t
  funext j
  show out0_5 (iblk0 V c 0 t) (iblk0 V c 1 t) (iblk0 V c 2 t) (iblk0 V c 3 t) j
    = dense (V c main_arg0 : S2x2048x1024.Idx → EReal) (V c main_v6 : S1024x1024.Idx → EReal) (((cfg0.win 5).blk t).view.emb j)
  rw [Dense.k_block]
  unfold dense
  refine Finset.sum_congr rfl fun c' _ => ?_
  have h0 : ((cfg0.win 0).blk t).view.emb (ix3 0 (j 1) c')
      = ix3 ((((cfg0.win 5).blk t).view.emb j) 0) ((((cfg0.win 5).blk t).view.emb j) 1) c' := by
    funext a; apply Fin.ext
    match a with
    | ⟨0, _⟩ => show win0_0.index t (0 : Fin 3) * 1 + 1 * 0 = win0_5.index t (0 : Fin 3) * 1 + 1 * (j 0).val; have hj : (j 0).val < 1 := (j 0).isLt; omega
    | ⟨1, _⟩ => show win0_0.index t (1 : Fin 3) * 512 + 1 * (j 1).val = win0_5.index t (1 : Fin 3) * 512 + 1 * (j 1).val; omega
    | ⟨2, _⟩ => show win0_0.index t (2 : Fin 3) * 1024 + 1 * c'.val = c'.val; omega
  have h1 : ((cfg0.win 2).blk t).view.emb (ix2 c' (j 2)) = ix2 c' ((((cfg0.win 5).blk t).view.emb j) 2) := by
    funext a; apply Fin.ext
    match a with
    | ⟨0, _⟩ => show win0_2.index t (0 : Fin 2) * 1024 + 1 * c'.val = c'.val; omega
    | ⟨1, _⟩ => show win0_2.index t (1 : Fin 2) * 1024 + 1 * (j 2).val = win0_5.index t (2 : Fin 3) * 1024 + 1 * (j 2).val; omega
  exact congrArg₂ (· * ·) (congrArg (V c main_arg0 : S2x2048x1024.Idx → EReal) h0) (congrArg (V c main_v6 : S1024x1024.Idx → EReal) h1)

/-- An index of the array is in point `t`'s block iff each coordinate is in the block's range on its axis. -/
theorem k_mem (t : Fin cfg0.N) (i : S2x2048x1024.Idx) :
    i ∈ ((cfg0.win 5).blk t).view.set ↔ ∀ a : Fin 3, win0_5.index t a * S1x512x1024.size a ≤ (i a).val
      ∧ (i a).val < win0_5.index t a * S1x512x1024.size a + S1x512x1024.size a := by
  show i ∈ ((View.whole main_v11_1).slice (win0_5.rect t)).set ↔ _
  rw [View.set_slice_whole, Rect.mem_set_unit]
  exact Iff.rfl

/-- Row `n` of batch `b` is in the block of grid point (b, n / 512). -/
theorem k_cover (i : S2x2048x1024.Idx) : ∃ t : Fin cfg0.N, (cfg0.win 5).flush t = true ∧ i ∈ ((cfg0.win 5).blk t).view.set := by
  have hi0 : (i 0).val < 2 := (i 0).isLt
  have hi1 : (i 1).val < 2048 := (i 1).isLt
  have hi2 : (i 2).val < 1024 := (i 2).isLt
  obtain ⟨t, ht⟩ := k_onto ⟨(i 0).val, by omega⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [k_mem]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-- The key array after the region. -/
theorem k_array (c : Dev nD) :
    (dat0 V c).arrAt 5 cfg0.N = dense (V c main_arg0 : S2x2048x1024.Idx → EReal) (V c main_v6 : S1024x1024.Idx → EReal) :=
  (dat0 V c).arrAt_eq_of_cover 5 _ (fun t _ => k_flushed V c t) k_cover

/-- The printed index maps, decided over the eight grid points: the row block of the input moves with the output block,
    the weight stays at block (0, 0), and the output's block indices stay in range. -/
theorem v_idx : ∀ t : Fin cfg0.N,
    win0_0.index t (0 : Fin 3) = win0_6.index t (0 : Fin 3) ∧ win0_0.index t (1 : Fin 3) = win0_6.index t (1 : Fin 3)
    ∧ win0_0.index t (2 : Fin 3) = 0 ∧ win0_6.index t (2 : Fin 3) = 0
    ∧ win0_3.index t (0 : Fin 2) = 0 ∧ win0_3.index t (1 : Fin 2) = 0
    ∧ win0_6.index t (0 : Fin 3) ≤ 1 ∧ win0_6.index t (1 : Fin 3) ≤ 3 :=
  (by decide +kernel : ∀ t : Fin grid0.N, _)

/-- Every block of the array is some grid point's. -/
theorem v_onto : ∀ (q0 : Fin 2) (q1 : Fin 4), ∃ t : Fin cfg0.N, win0_6.index t = ![q0.val, q1.val, 0] :=
  (by decide +kernel : ∀ (q0 : Fin 2) (q1 : Fin 4), ∃ t : Fin grid0.N, win0_6.index t = ![q0.val, q1.val, 0])

/-- What grid point `t` writes back to the value array is block `t` of the dense layer of the region's row operand against its
    weight operand. -/
theorem v_flushed (c : Dev nD) (t : Fin cfg0.N) :
    (dat0 V c).flushed 6 t = ((cfg0.win 6).blk t).view.read (Elt Ideal)
      (dense (V c main_arg0 : S2x2048x1024.Idx → EReal) (V c main_v8 : S1024x1024.Idx → EReal)) := by
  show (cfg0.win 6).cut (grid0.coords t) ((dat0 V c).after 6 t) = _
  rw [after0_6]
  obtain ⟨e0, e1, e2, e3, e4, e5, e6, e7⟩ := v_idx t
  funext j
  show out0_6 (iblk0 V c 0 t) (iblk0 V c 1 t) (iblk0 V c 2 t) (iblk0 V c 3 t) j
    = dense (V c main_arg0 : S2x2048x1024.Idx → EReal) (V c main_v8 : S1024x1024.Idx → EReal) (((cfg0.win 6).blk t).view.emb j)
  rw [Dense.v_block]
  unfold dense
  refine Finset.sum_congr rfl fun c' _ => ?_
  have h0 : ((cfg0.win 0).blk t).view.emb (ix3 0 (j 1) c')
      = ix3 ((((cfg0.win 6).blk t).view.emb j) 0) ((((cfg0.win 6).blk t).view.emb j) 1) c' := by
    funext a; apply Fin.ext
    match a with
    | ⟨0, _⟩ => show win0_0.index t (0 : Fin 3) * 1 + 1 * 0 = win0_6.index t (0 : Fin 3) * 1 + 1 * (j 0).val; have hj : (j 0).val < 1 := (j 0).isLt; omega
    | ⟨1, _⟩ => show win0_0.index t (1 : Fin 3) * 512 + 1 * (j 1).val = win0_6.index t (1 : Fin 3) * 512 + 1 * (j 1).val; omega
    | ⟨2, _⟩ => show win0_0.index t (2 : Fin 3) * 1024 + 1 * c'.val = c'.val; omega
  have h1 : ((cfg0.win 3).blk t).view.emb (ix2 c' (j 2)) = ix2 c' ((((cfg0.win 6).blk t).view.emb j) 2) := by
    funext a; apply Fin.ext
    match a with
    | ⟨0, _⟩ => show win0_3.index t (0 : Fin 2) * 1024 + 1 * c'.val = c'.val; omega
    | ⟨1, _⟩ => show win0_3.index t (1 : Fin 2) * 1024 + 1 * (j 2).val = win0_6.index t (2 : Fin 3) * 1024 + 1 * (j 2).val; omega
  exact congrArg₂ (· * ·) (congrArg (V c main_arg0 : S2x2048x1024.Idx → EReal) h0) (congrArg (V c main_v8 : S1024x1024.Idx → EReal) h1)

/-- An index of the array is in point `t`'s block iff each coordinate is in the block's range on its axis. -/
theorem v_mem (t : Fin cfg0.N) (i : S2x2048x1024.Idx) :
    i ∈ ((cfg0.win 6).blk t).view.set ↔ ∀ a : Fin 3, win0_6.index t a * S1x512x1024.size a ≤ (i a).val
      ∧ (i a).val < win0_6.index t a * S1x512x1024.size a + S1x512x1024.size a := by
  show i ∈ ((View.whole main_v11_2).slice (win0_6.rect t)).set ↔ _
  rw [View.set_slice_whole, Rect.mem_set_unit]
  exact Iff.rfl

/-- Row `n` of batch `b` is in the block of grid point (b, n / 512). -/
theorem v_cover (i : S2x2048x1024.Idx) : ∃ t : Fin cfg0.N, (cfg0.win 6).flush t = true ∧ i ∈ ((cfg0.win 6).blk t).view.set := by
  have hi0 : (i 0).val < 2 := (i 0).isLt
  have hi1 : (i 1).val < 2048 := (i 1).isLt
  have hi2 : (i 2).val < 1024 := (i 2).isLt
  obtain ⟨t, ht⟩ := v_onto ⟨(i 0).val, by omega⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [v_mem]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 1024 ≤ (i 2).val ∧ (i 2).val < win0_6.index t (2 : Fin 3) * 1024 + 1024; omega

/-- The value array after the region. -/
theorem v_array (c : Dev nD) :
    (dat0 V c).arrAt 6 cfg0.N = dense (V c main_arg0 : S2x2048x1024.Idx → EReal) (V c main_v8 : S1024x1024.Idx → EReal) :=
  (dat0 V c).arrAt_eq_of_cover 6 _ (fun t _ => v_flushed V c t) v_cover

end Cert.Attention.Arrays

end
-- ==== Proof.OutArray.lean ====
/-
  The result array after the last region: grid point (b, i) of the 2 x 4 grid writes rows 512·i … 512·i + 511 of
  batch b; the blocks tile the array and each is that range of rows of the dense layer of the attention output against
  the transposed output weight.
-/
import proofs.«173302_j45131516346804_1_alg».proof.Proof.Gen.KernelIdeal.Frame
import proofs.«173302_j45131516346804_1_alg».proof.Proof.Spec
import proofs.«173302_j45131516346804_1_alg».proof.Proof.DensePoint
import Idealize.ShloMosaic.Lib.Pipeline.Value

set_option maxRecDepth 16384

noncomputable section

open scoped BigOperators

namespace Cert.Attention.Arrays

open Cert.KernelIdeal Cert.KernelIdeal.Gen
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The printed index maps, decided over the eight grid points: the row block of the input moves with the output block,
    the weight stays at block (0, 0), and the output's block indices stay in range. -/
theorem o_idx : ∀ t : Fin cfg2.N,
    win2_0.index t (0 : Fin 3) = win2_2.index t (0 : Fin 3) ∧ win2_0.index t (1 : Fin 3) = win2_2.index t (1 : Fin 3)
    ∧ win2_0.index t (2 : Fin 3) = 0 ∧ win2_2.index t (2 : Fin 3) = 0
    ∧ win2_1.index t (0 : Fin 2) = 0 ∧ win2_1.index t (1 : Fin 2) = 0
    ∧ win2_2.index t (0 : Fin 3) ≤ 1 ∧ win2_2.index t (1 : Fin 3) ≤ 3 :=
  (by decide +kernel : ∀ t : Fin grid2.N, _)

/-- Every block of the array is some grid point's. -/
theorem o_onto : ∀ (q0 : Fin 2) (q1 : Fin 4), ∃ t : Fin cfg2.N, win2_2.index t = ![q0.val, q1.val, 0] :=
  (by decide +kernel : ∀ (q0 : Fin 2) (q1 : Fin 4), ∃ t : Fin grid2.N, win2_2.index t = ![q0.val, q1.val, 0])

/-- What grid point `t` writes back to the result array is block `t` of the dense layer of the region's row operand against its
    weight operand. -/
theorem o_flushed (c : Dev nD) (t : Fin cfg2.N) :
    (dat2 V c).flushed 2 t = ((cfg2.win 2).blk t).view.read (Elt Ideal)
      (dense (V c main_v12 : S2x2048x1024.Idx → EReal) (V c main_v10 : S1024x1024.Idx → EReal)) := by
  show (cfg2.win 2).cut (grid2.coords t) ((dat2 V c).after 2 t) = _
  rw [after2_2]
  obtain ⟨e0, e1, e2, e3, e4, e5, e6, e7⟩ := o_idx t
  funext j
  show out2_2 (iblk2 V c 0 t) (iblk2 V c 1 t) j
    = dense (V c main_v12 : S2x2048x1024.Idx → EReal) (V c main_v10 : S1024x1024.Idx → EReal) (((cfg2.win 2).blk t).view.emb j)
  rw [Dense.o_block]
  unfold dense
  refine Finset.sum_congr rfl fun c' _ => ?_
  have h0 : ((cfg2.win 0).blk t).view.emb (ix3 0 (j 1) c')
      = ix3 ((((cfg2.win 2).blk t).view.emb j) 0) ((((cfg2.win 2).blk t).view.emb j) 1) c' := by
    funext a; apply Fin.ext
    match a with
    | ⟨0, _⟩ => show win2_0.index t (0 : Fin 3) * 1 + 1 * 0 = win2_2.index t (0 : Fin 3) * 1 + 1 * (j 0).val; have hj : (j 0).val < 1 := (j 0).isLt; omega
    | ⟨1, _⟩ => show win2_0.index t (1 : Fin 3) * 512 + 1 * (j 1).val = win2_2.index t (1 : Fin 3) * 512 + 1 * (j 1).val; omega
    | ⟨2, _⟩ => show win2_0.index t (2 : Fin 3) * 1024 + 1 * c'.val = c'.val; omega
  have h1 : ((cfg2.win 1).blk t).view.emb (ix2 c' (j 2)) = ix2 c' ((((cfg2.win 2).blk t).view.emb j) 2) := by
    funext a; apply Fin.ext
    match a with
    | ⟨0, _⟩ => show win2_1.index t (0 : Fin 2) * 1024 + 1 * c'.val = c'.val; omega
    | ⟨1, _⟩ => show win2_1.index t (1 : Fin 2) * 1024 + 1 * (j 2).val = win2_2.index t (2 : Fin 3) * 1024 + 1 * (j 2).val; omega
  exact congrArg₂ (· * ·) (congrArg (V c main_v12 : S2x2048x1024.Idx → EReal) h0) (congrArg (V c main_v10 : S1024x1024.Idx → EReal) h1)

/-- An index of the array is in point `t`'s block iff each coordinate is in the block's range on its axis. -/
theorem o_mem (t : Fin cfg2.N) (i : S2x2048x1024.Idx) :
    i ∈ ((cfg2.win 2).blk t).view.set ↔ ∀ a : Fin 3, win2_2.index t a * S1x512x1024.size a ≤ (i a).val
      ∧ (i a).val < win2_2.index t a * S1x512x1024.size a + S1x512x1024.size a := by
  show i ∈ ((View.whole main_v13).slice (win2_2.rect t)).set ↔ _
  rw [View.set_slice_whole, Rect.mem_set_unit]
  exact Iff.rfl

/-- Row `n` of batch `b` is in the block of grid point (b, n / 512). -/
theorem o_cover (i : S2x2048x1024.Idx) : ∃ t : Fin cfg2.N, (cfg2.win 2).flush t = true ∧ i ∈ ((cfg2.win 2).blk t).view.set := by
  have hi0 : (i 0).val < 2 := (i 0).isLt
  have hi1 : (i 1).val < 2048 := (i 1).isLt
  have hi2 : (i 2).val < 1024 := (i 2).isLt
  obtain ⟨t, ht⟩ := o_onto ⟨(i 0).val, by omega⟩ ⟨(i 1).val / 512, by omega⟩
  have q0 : win2_2.index t (0 : Fin 3) = (i 0).val := congrFun ht 0
  have q1 : win2_2.index t (1 : Fin 3) = (i 1).val / 512 := congrFun ht 1
  have q2 : win2_2.index t (2 : Fin 3) = 0 := congrFun ht 2
  refine ⟨t, flush2_2 t, ?_⟩
  rw [o_mem]
  intro a
  match a with
  | ⟨0, _⟩ => show win2_2.index t (0 : Fin 3) * 1 ≤ (i 0).val ∧ (i 0).val < win2_2.index t (0 : Fin 3) * 1 + 1; omega
  | ⟨1, _⟩ => show win2_2.index t (1 : Fin 3) * 512 ≤ (i 1).val ∧ (i 1).val < win2_2.index t (1 : Fin 3) * 512 + 512; omega
  | ⟨2, _⟩ => show win2_2.index t (2 : Fin 3) * 1024 ≤ (i 2).val ∧ (i 2).val < win2_2.index t (2 : Fin 3) * 1024 + 1024; omega

/-- The result array after the region. -/
theorem o_array (c : Dev nD) :
    (dat2 V c).arrAt 2 cfg2.N = dense (V c main_v12 : S2x2048x1024.Idx → EReal) (V c main_v10 : S1024x1024.Idx → EReal) :=
  (dat2 V c).arrAt_eq_of_cover 2 _ (fun t _ => o_flushed V c t) o_cover

end Cert.Attention.Arrays

end
-- ==== Proof.LibCat.lean ====
/-
  A two-piece concatenation as a plain binary function of its pieces, so that a rewriting pass can reach the pieces (they
  sit, in the printed form, inside a list of shape-indexed pairs), with its reading at an index: along the concatenated
  axis, coordinates below the first piece's extent read the first piece, the others read the second piece at the
  coordinate less that extent. And the evaluation of a line of host operations at a buffer as one rewriting pass that
  also folds such concatenations.
-/
import Idealize.ShloMosaic.PureOps.Ideal
import Idealize.ShloMosaic.Lib.Pipeline.Value
import Idealize.ShloMosaic.Lib.ValueIdx
import Idealize.ShloMosaic.Lib.StableHlo.Run

noncomputable section

namespace Cert.Cat

open Idealize.ShloMosaic Idealize.ShloMosaic.ValueIdx

variable {α : Type}

/-- The concatenation of two pieces along axis `a`. -/
def cat2 (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem cat2_fold (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

/-- Two `[R, A]` and `[R, B]` pieces side by side: a column below `A` reads the first piece. -/
theorem cat2_cols_left {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin A) :
    cat2 ⟨2, ![R, A + B]⟩ 1 ⟨2, ![R, A]⟩ ⟨2, ![R, B]⟩ h x₁ x₂ (ix2 r (Fin.castAdd B k)) = x₁ (ix2 r k) :=
  concatenate_pair_apply_left 1 x₁ x₂ h (ix2 r (Fin.castAdd B k)) rfl (ix2 r k) (fun b => by
    match b with
    | ⟨0, _⟩ => rfl
    | ⟨1, _⟩ => rfl)

/-- … and a column `A + k` reads the second piece at column `k`. -/
theorem cat2_cols_right {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin B) :
    cat2 ⟨2, ![R, A + B]⟩ 1 ⟨2, ![R, A]⟩ ⟨2, ![R, B]⟩ h x₁ x₂ (ix2 r (Fin.natAdd A k)) = x₂ (ix2 r k) :=
  concatenate_pair_apply_right 1 x₁ x₂ h (ix2 r (Fin.natAdd A k)) rfl rfl (ix2 r k) (fun b hb => by
    match b with
    | ⟨0, _⟩ => rfl
    | ⟨1, _⟩ => exact absurd rfl hb) (by show k.val + A = A + k.val; omega)

end Cert.Cat

open Idealize.ShloMosaic.StableHlo in
/-- A line's fold at a buffer: the library's one-pass evaluation, alternated with folding two-piece concatenations into
    binary functions (whose pieces the next pass then reaches), until neither makes progress. -/
macro "eval_line" : tactic =>
  `(tactic| repeat (first | after_results_simp | simp only [Cert.Cat.cat2_fold]))

end
-- ==== Proof.LibKeepdims.lean ====
/-
  Column ("keepdims") layouts read at an index given by coordinates.

  A row statistic of a matrix (a row sum, a row maximum) is a vector `[a]`; to combine it with the matrix again it is
  first viewed as the one-column matrix `[a, 1]` and then repeated along the columns to `[a, b]`. A statistic of the
  whole matrix is a one-element vector `[1]`, viewed as `[1, 1]` and repeated down the rows to the column `[a, 1]`.
  And a matrix that is one block of a rank-4 array is the block `[1, 1, a, b]` with its two unit axes dropped, or
  the matrix with two unit axes put in front. Each lemma here says which ONE element of the operand such a view reads
  at an index written by coordinates: a shape cast keeps the row-major position, and a broadcast reads coordinate `0`
  on an axis of size one. They complement the leading-unit-axis casts and the row broadcast `[1, b] → [a, b]` of the
  library's layout lemmas; all are general in the sizes.
-/
import Idealize.ShloMosaic.Lib.ValueLayout

namespace Cert.Keepdims

open Idealize.ShloMosaic Idealize.ShloMosaic.ValueIdx

variable {α : Type}

/-! ## A vector as a one-column matrix, and the column repeated -/

/-- An `[a]` vector cast to the column `[a, 1]` reads, at `(i, u)`, the vector at `i`: the position `i · 1 + u` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One number as a `[1, 1]` matrix, repeated down a column -/

/-- A one-element vector `[1]` cast to `[1, 1]` reads its one element everywhere. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) := by
  obtain rfl : u = 0 := Subsingleton.elim _ _
  exact shapeCast_a_a1_apply x h 0 v

/-- A `[1, 1]` matrix broadcast to the column `[a, 1]` reads its one element in every row. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  obtain rfl : u = 0 := Subsingleton.elim _ _
  exact broadcastTo_1b_ab_apply v h p 0

/-! ## Two leading unit axes dropped from, or added to, a matrix -/

/-- A `[1, 1, a, b]` block cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A matrix `[a, b]` cast to the block `[1, 1, a, b]` reads, at `(u, v, i, j)`, the matrix at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.add_zero])

end Cert.Keepdims
-- ==== Proof.HeadPair.lean ====
/-
  One grid point of the attention body, read at an entry.

  The body receives a block of 512 query rows and all 2048 key and value rows, each restricted to a slab of 128
  columns that holds two heads of 64 lanes side by side. For each head it takes the product of the query lanes with the
  transposed key lanes, scales it by 1/8, subtracts from every row its largest entry (a maximum started from -∞ and
  joined with -∞ once more), exponentiates, divides by the row sum, and multiplies by the head's value lanes; the two
  [512, 64] results are then laid side by side. Over the extended reals every format change is the identity, so entry
  (r, c) of the result is the softmax-weighted average of value column c, with the scores taken over the 64 lanes of the
  head that column c belongs to. Nothing beyond re-indexing is used: a matrix product into the zero accumulator is the
  sum of products over the contracted coordinate, a reduction over one axis is the sum (or the fold of max) over that
  axis's coordinates, and each layout operation reads one element of its operand.
-/
import proofs.«173302_j45131516346804_1_alg».proof.Proof.Gen.KernelIdeal.Frame
import proofs.«173302_j45131516346804_1_alg».proof.Proof.Spec
import proofs.«173302_j45131516346804_1_alg».proof.Proof.LibMatProd
import proofs.«173302_j45131516346804_1_alg».proof.Proof.LibCat
import proofs.«173302_j45131516346804_1_alg».proof.Proof.LibKeepdims
import Idealize.ShloMosaic.Lib.ValueLayout
import Idealize.ShloMosaic.PureOps.Ideal.Laws

noncomputable section
open scoped BigOperators
namespace Cert.Attention.Body
open Idealize.ShloMosaic Idealize.ShloMosaic.ValueIdx Cert.Attention Cert.KernelIdeal Cert.KernelIdeal.Gen

/-- The scaled scores of a block of query rows against all key rows: the product with the transposed keys, times 1/8. -/
def scores (qs : FVec Ideal S512x64 .bf16) (ks : FVec Ideal S2048x64 .bf16) : FVec Ideal S512x2048 .f32 :=
  mulf (matmul dot_S512x64_S64x2048_S512x2048_1_0_0_1_n_n none qs
      (transpose S64x2048 [1, 0] ks transposes_S2048x64_p1_0_S64x2048) (constant S512x2048 .f32 0x00000000#32))
    (broadcast S512x2048 (Scalar.ofBits .f32 0x3E000000#32))

theorem scores_apply (qs : FVec Ideal S512x64 .bf16) (ks : FVec Ideal S2048x64 .bf16) (r : Fin 512) (k' : Fin 2048) :
    scores qs ks (ix2 r k') = score (fun d : Fin 64 => qs (ix2 r d)) (fun (k'' : Fin 2048) (d : Fin 64) => ks (ix2 k'' d)) k' := by
  unfold scores score
  rw [mulf_apply, broadcast_apply]
  refine congrArg₂ (· * ·) ?_ rfl
  refine (Cert.MatProd.matmul_plain_zero_apply (M := 512) (K := 64) (N := 2048) none qs _ r k').trans ?_
  refine Finset.sum_congr rfl fun d _ => ?_
  rw [transpose_ix2_apply]

/-- The row maximum (from -∞, joined with -∞), as a column repeated along the row. -/
def rowmaxB (S : FVec Ideal S512x2048 .f32) : FVec Ideal S512x2048 .f32 :=
  broadcastTo S512x2048 (shapeCast S512x1 (maximumf (broadcast S512 (Scalar.ofBits .f32 0xFF800000#32))
    (multiReduction .maximumf [1] S512 S 0xFF800000#32 reduces_S512x2048_S512 (.inl rfl) rfl)) shapeCasts_S512_S512x1) broadcasts_S512x1_S512x2048

theorem lift_row (h : S512x2048.Reduces [1] S512) (r : Fin 512) (k' : Fin 2048) : h.lift (ix1 r) k' = ix2 r k' := by
  funext a; apply Fin.ext
  match a with
  | ⟨0, _⟩ => rfl
  | ⟨1, _⟩ => rfl

theorem rowmaxB_apply (S : FVec Ideal S512x2048 .f32) (r : Fin 512) (k' : Fin 2048) :
    rowmaxB S (ix2 r k') = rowmax (fun k'' : Fin 2048 => S (ix2 r k'')) := by
  unfold rowmaxB rowmax
  rw [Cert.Keepdims.broadcastTo_a1_ab_apply, Cert.Keepdims.shapeCast_a_a1_apply, maximumf_apply, broadcast_apply]
  refine congrArg₂ max rfl ((Ideal.multiReduction_maximumf_single S _ reduces_S512x2048_S512 _ _ (ix1 r)).trans ?_)
  refine congrArg (fun f => (Finset.univ : Finset (Fin 2048)).fold max negInf f) ?_
  funext k''
  exact congrArg S (lift_row _ r k'')

/-- From the scaled scores and the repeated row maximum to one head's output: exponentials of the differences, their row
    sums, the quotient, and the product with the head's value columns. -/
def tail (S M : FVec Ideal S512x2048 .f32) (vs : FVec Ideal S2048x64 .bf16) : FVec Ideal S512x64 .f32 :=
  matmul dot_S512x2048_S2048x64_S512x64_1_0_0_1_n_n none
    (truncf .bf16 (divf (exp (subf S M)) (broadcastTo S512x2048 (shapeCast S512x1
      (multiReduction .add [1] S512 (exp (subf S M)) 0x00000000#32 reduces_S512x2048_S512 (.inl rfl) rfl)
      shapeCasts_S512_S512x1) broadcasts_S512x1_S512x2048)) bitsLt_bf16_f32)
    vs (constant S512x64 .f32 0x00000000#32)

theorem tail_apply (S M : FVec Ideal S512x2048 .f32) (vs : FVec Ideal S2048x64 .bf16) (r : Fin 512) (d : Fin 64)
    (s : Fin 2048 → EReal) (hS : ∀ k', S (ix2 r k') = s k') (hM : ∀ k', M (ix2 r k') = rowmax s) :
    tail S M vs (ix2 r d) = ∑ k' : Fin 2048, smax s k' * vs (ix2 k' d) := by
  have hE : ∀ k' : Fin 2048, exp (subf S M) (ix2 r k') = wexp s k' := fun k' => by
    show Ideal.exp (S (ix2 r k') - M (ix2 r k')) = Ideal.exp (s k' - rowmax s)
    rw [hS, hM]
  unfold tail
  refine (Cert.MatProd.matmul_plain_zero_apply (M := 512) (K := 2048) (N := 64) none _ vs r d).trans ?_
  refine Finset.sum_congr rfl fun k' _ => ?_
  refine congrArg₂ (· * ·) ?_ rfl
  rw [truncf_apply, divf_apply, Cert.Keepdims.broadcastTo_a1_ab_apply, Cert.Keepdims.shapeCast_a_a1_apply, hE]
  unfold smax
  refine congrArg (Ideal.div (wexp s k')) ?_
  refine (Ideal.multiReduction_add_single (exp (subf S M)) _ reduces_S512x2048_S512 _ _ (ix1 r)).trans ?_
  refine Finset.sum_congr rfl fun k'' _ => ?_
  exact (congrArg (exp (subf S M)) (lift_row _ r k'')).trans (hE k'')

/-- One head of the slab: the chain above on the column slices at offset `o` (0 or 64) reads, at row `r` and the head's
    lane `d`, the softmax-weighted average of the slab's column `c = o + d` over that head's lanes. -/
theorem head_at (o : Nat) (hq : S512x128.Slices ![0, o] S512x64) (hk : S2048x128.Slices ![0, o] S2048x64)
    (q : Vec Ideal S1x512x128 .bf16) (k v : Vec Ideal S1x2048x128 .bf16) (r : Fin 512) (d : Fin 64) (c : Fin 128)
    (hc : c.val = o + d.val) (hl : ∀ d' : Fin 64, (lane c d').val = o + d'.val) :
    tail (scores (extractStridedSlice S512x64 ![0, o] (k1_pay2 q) hq) (extractStridedSlice S2048x64 ![0, o] (k1_pay3 k) hk))
        (rowmaxB (scores (extractStridedSlice S512x64 ![0, o] (k1_pay2 q) hq) (extractStridedSlice S2048x64 ![0, o] (k1_pay3 k) hk)))
        (extractStridedSlice S2048x64 ![0, o] (k1_pay4 v) hk) (ix2 r d)
      = head (fun d' : Fin 64 => q (ix3 0 r (lane c d'))) (fun k' d' => k (ix3 0 k' (lane c d'))) (fun k' : Fin 2048 => v (ix3 0 k' c)) := by
  have e1 : (fun d' : Fin 64 => extractStridedSlice S512x64 ![0, o] (k1_pay2 q) hq (ix2 r d')) = fun d' => q (ix3 0 r (lane c d')) :=
    funext fun d' => (slice2_axis1_apply o (k1_pay2 q) hq r d' (lane c d') (hl d')).trans (shapeCast_1ab_ab_apply q _ r (lane c d'))
  have e2 : (fun (k' : Fin 2048) (d' : Fin 64) => extractStridedSlice S2048x64 ![0, o] (k1_pay3 k) hk (ix2 k' d'))
      = fun k' d' => k (ix3 0 k' (lane c d')) :=
    funext fun k' => funext fun d' =>
      (slice2_axis1_apply o (k1_pay3 k) hk k' d' (lane c d') (hl d')).trans (shapeCast_1ab_ab_apply k _ k' (lane c d'))
  have e3 : ∀ k' : Fin 2048, extractStridedSlice S2048x64 ![0, o] (k1_pay4 v) hk (ix2 k' d) = v (ix3 0 k' c) := fun k' =>
    (slice2_axis1_apply o (k1_pay4 v) hk k' d c hc).trans (shapeCast_1ab_ab_apply v _ k' c)
  refine (tail_apply _ _ _ r d _ (scores_apply _ _ r)
    (fun k' => (rowmaxB_apply _ r k').trans (congrArg rowmax (funext (scores_apply _ _ r))))).trans ?_
  rw [e1, e2]
  unfold head
  exact Finset.sum_congr rfl fun k' _ => by rw [e3]

theorem pay1_eq (v25 : FVec Ideal S512x64 .f32) (v28 : FVec Ideal S2048x64 .bf16) (v32 v37 : FVec Ideal S512x2048 .f32) :
    k1_pay1 v25 v28 v32 v37 = shapeCast S1x512x128 (truncf .bf16 (concatenate S512x128 1 [⟨S512x64, v25⟩, ⟨S512x64, tail v32 v37 v28⟩]
      concatenates_S512x64_S512x64_S512x128_d1) bitsLt_bf16_f32) shapeCasts_S512x128_S1x512x128 := rfl

theorem pay7_eq (q : Vec Ideal S1x512x128 .bf16) (k : Vec Ideal S1x2048x128 .bf16) :
    k1_pay7 q k = scores (extractStridedSlice S512x64 ![0, 64] (k1_pay2 q) slices_S512x128_o0_64_S512x64)
      (extractStridedSlice S2048x64 ![0, 64] (k1_pay3 k) slices_S2048x128_o0_64_S2048x64) := rfl

theorem pay8_eq (q : Vec Ideal S1x512x128 .bf16) (k : Vec Ideal S1x2048x128 .bf16) :
    k1_pay8 q k = rowmaxB (k1_pay7 q k) := rfl

theorem pay6_eq (v : Vec Ideal S1x2048x128 .bf16) :
    k1_pay6 v = extractStridedSlice S2048x64 ![0, 64] (k1_pay4 v) slices_S2048x128_o0_64_S2048x64 := rfl

theorem pay5_eq (q : Vec Ideal S1x512x128 .bf16) (k v : Vec Ideal S1x2048x128 .bf16) :
    k1_pay5 q k v = tail
      (scores (extractStridedSlice S512x64 ![0, 0] (k1_pay2 q) slices_S512x128_o0_0_S512x64)
        (extractStridedSlice S2048x64 ![0, 0] (k1_pay3 k) slices_S2048x128_o0_0_S2048x64))
      (rowmaxB (scores (extractStridedSlice S512x64 ![0, 0] (k1_pay2 q) slices_S512x128_o0_0_S512x64)
        (extractStridedSlice S2048x64 ![0, 0] (k1_pay3 k) slices_S2048x128_o0_0_S2048x64)))
      (extractStridedSlice S2048x64 ![0, 0] (k1_pay4 v) slices_S2048x128_o0_0_S2048x64) := rfl

theorem hz : (![0, 0, 0] : Fin 3 → Nat) = fun _ => 0 := funext fun a => by fin_cases a <;> rfl

/-- ONE GRID POINT: the block the body leaves, at row `r` and column `c` of the two-head slab, is the softmax-weighted
    average of value column `c` with the scores taken over the lanes of the head `c` belongs to. -/
theorem out_apply (q : Vec Ideal S1x512x128 .bf16) (k v : Vec Ideal S1x2048x128 .bf16) (r : Fin 512) (c : Fin 128) :
    out1_3 (F := Ideal) q k v (ix3 0 r c)
      = head (fun d : Fin 64 => q (ix3 0 r (lane c d))) (fun k' d => k (ix3 0 k' (lane c d))) (fun k' : Fin 2048 => v (ix3 0 k' c)) := by
  unfold out1_3
  rw [View.canon_unit_zero hz]
  simp only [View.ld_unit_zero (S := S1x512x128) hz, View.ld_unit_zero (S := S1x2048x128) hz]
  rw [pay1_eq, shapeCast_ab_1ab_apply, truncf_apply, Cert.Cat.cat2_fold]
  by_cases hc : c.val < 64
  · obtain ⟨c', rfl⟩ : ∃ c' : Fin 64, c = Fin.castAdd 64 c' := ⟨⟨c.val, hc⟩, rfl⟩
    refine (Cert.Cat.cat2_cols_left (R := 512) (A := 64) (B := 64) _ _ _ r c').trans ?_
    rw [pay5_eq]
    exact head_at 0 slices_S512x128_o0_0_S512x64 slices_S2048x128_o0_0_S2048x64 q k v r c' _
      (by show c'.val = 0 + c'.val; omega)
      (fun d' => by show 64 * (c'.val / 64) + d'.val = 0 + d'.val; have := c'.isLt; omega)
  · obtain ⟨c', rfl⟩ : ∃ c' : Fin 64, c = Fin.natAdd 64 c' :=
      ⟨⟨c.val - 64, by have := c.isLt; omega⟩, Fin.ext (by show c.val = 64 + (c.val - 64); omega)⟩
    refine (Cert.Cat.cat2_cols_right (R := 512) (A := 64) (B := 64) _ _ _ r c').trans ?_
    rw [pay8_eq, pay7_eq, pay6_eq]
    exact head_at 64 slices_S512x128_o0_64_S512x64 slices_S2048x128_o0_64_S2048x64 q k v r c' _
      (by show 64 + c'.val = 64 + c'.val; rfl)
      (fun d' => by show 64 * ((64 + c'.val) / 64) + d'.val = 64 + d'.val; have := c'.isLt; omega)

end Cert.Attention.Body
end
-- ==== Proof.AttnArray.lean ====
/-
  The attention output array after the second region. Grid point (b, p, i) of the 2 x 8 x 4 grid reads rows
  512·i … 512·i + 511 of batch b of the query array and all 2048 rows of batch b of the key and value arrays, all in
  the 128 columns of head pair p, and writes the same rows and columns of the output; the blocks tile the
  [2, 2048, 1024] array. Column 128·p + c of the array belongs to head 2·p + c / 64, whose lanes are the columns
  128·p + 64·(c / 64) + d: the block's own two heads. So each block is that box of one whole-array function — attention
  over the three arrays — and the array ends holding that function.
-/
import proofs.«173302_j45131516346804_1_alg».proof.Proof.Gen.KernelIdeal.Frame
import proofs.«173302_j45131516346804_1_alg».proof.Proof.Spec
import proofs.«173302_j45131516346804_1_alg».proof.Proof.HeadPair
import Idealize.ShloMosaic.Lib.Pipeline.Value

set_option maxRecDepth 16384

noncomputable section

open scoped BigOperators

namespace Cert.Attention.Arrays

open Cert.KernelIdeal Cert.KernelIdeal.Gen
open Idealize.ShloMosaic Idealize.ShloMosaic.ValueIdx Idealize.ShloMosaic.TcCoe Idealize.SL.Sem
open Idealize.ShloMosaic.Pipeline (Dat)

/-- One grid point's stored block at any of its indices: row `j 1`, column `j 2`. -/
theorem a_block (q : Vec Ideal S1x512x128 .bf16) (k v : Vec Ideal S1x2048x128 .bf16) (j : S1x512x128.Idx) :
    out1_3 (F := Ideal) q k v j = head (fun d : Fin 64 => q (ix3 0 (j 1) (lane (j 2) d)))
      (fun k' d => k (ix3 0 k' (lane (j 2) d))) (fun k' : Fin 2048 => v (ix3 0 k' (j 2))) := by
  obtain ⟨u, r, c, rfl⟩ : ∃ (u : Fin 1) (r : Fin 512) (c : Fin 128), j = ix3 u r c := ⟨j 0, j 1, j 2, eq_ix3 j⟩
  obtain rfl : u = 0 := Subsingleton.elim _ _
  exact Body.out_apply q k v r c

variable (V : (c : Dev nD) → (b : Ref sig .tc) → Buf (Elt Ideal) ((c : Thread nD τ).loc b))

/-- The printed index maps, decided over the sixty-four grid points: the query block moves with the output block, the
    key and value blocks sit at row block 0 of the same batch and head pair, and the output's block indices stay in
    range. -/
theorem a_idx : ∀ t : Fin cfg1.N,
    win1_0.index t = win1_3.index t
    ∧ win1_1.index t (0 : Fin 3) = win1_3.index t (0 : Fin 3) ∧ win1_1.index t (1 : Fin 3) = 0 ∧ win1_1.index t (2 : Fin 3) = win1_3.index t (2 : Fin 3)
    ∧ win1_2.index t (0 : Fin 3) = win1_3.index t (0 : Fin 3) ∧ win1_2.index t (1 : Fin 3) = 0 ∧ win1_2.index t (2 : Fin 3) = win1_3.index t (2 : Fin 3)
    ∧ win1_3.index t (0 : Fin 3) ≤ 1 ∧ win1_3.index t (1 : Fin 3) ≤ 3 ∧ win1_3.index t (2 : Fin 3) ≤ 7 :=
  (by decide +kernel : ∀ t : Fin grid1.N, _)

/-- Every block of the array is some grid point's. -/
theorem a_onto : ∀ (q0 : Fin 2) (q1 : Fin 4) (q2 : Fin 8), ∃ t : Fin cfg1.N, win1_3.index t = ![q0.val, q1.val, q2.val] :=
  (by decide +kernel : ∀ (q0 : Fin 2) (q1 : Fin 4) (q2 : Fin 8), ∃ t : Fin grid1.N, win1_3.index t = ![q0.val, q1.val, q2.val])

/-- What grid point `t` writes back is block `t` of attention over the three arrays as the region finds them. -/
theorem a_flushed (c : Dev nD) (t : Fin cfg1.N) :
    (dat1 V c).flushed 3 t = ((cfg1.win 3).blk t).view.read (Elt Ideal)
      (attn (V c main_v11_0 : S2x2048x1024.Idx → EReal) (V c main_v11_1 : S2x2048x1024.Idx → EReal) (V c main_v11_2 : S2x2048x1024.Idx → EReal)) := by
  show (cfg1.win 3).cut (grid1.coords t) ((dat1 V c).after 3 t) = _
  rw [after1_3]
  obtain ⟨e0, e1, e2, e3, e4, e5, e6, e7, e8, e9⟩ := a_idx t
  have e00 : win1_0.index t (0 : Fin 3) = win1_3.index t (0 : Fin 3) := congrFun e0 0
  have e01 : win1_0.index t (1 : Fin 3) = win1_3.index t (1 : Fin 3) := congrFun e0 1
  have e02 : win1_0.index t (2 : Fin 3) = win1_3.index t (2 : Fin 3) := congrFun e0 2
  funext j
  show out1_3 (iblk1 V c 0 t) (iblk1 V c 1 t) (iblk1 V c 2 t) j
    = attn (V c main_v11_0 : S2x2048x1024.Idx → EReal) (V c main_v11_1 : S2x2048x1024.Idx → EReal) (V c main_v11_2 : S2x2048x1024.Idx → EReal)
        (((cfg1.win 3).blk t).view.emb j)
  rw [a_block]
  unfold attn
  have hj0 : (j 0).val < 1 := (j 0).isLt
  have hj1 : (j 1).val < 512 := (j 1).isLt
  have hj2 : (j 2).val < 128 := (j 2).isLt
  have hq : ∀ d : Fin 64, ((cfg1.win 0).blk t).view.emb (ix3 0 (j 1) (lane (j 2) d))
      = ix3 ((((cfg1.win 3).blk t).view.emb j) 0) ((((cfg1.win 3).blk t).view.emb j) 1) (col (headOf ((((cfg1.win 3).blk t).view.emb j) 2)) d) := by
    intro d
    have hd : d.val < 64 := d.isLt
    funext a; apply Fin.ext
    match a with
    | ⟨0, _⟩ => show win1_0.index t (0 : Fin 3) * 1 + 1 * 0 = win1_3.index t (0 : Fin 3) * 1 + 1 * (j 0).val; omega
    | ⟨1, _⟩ => show win1_0.index t (1 : Fin 3) * 512 + 1 * (j 1).val = win1_3.index t (1 : Fin 3) * 512 + 1 * (j 1).val; omega
    | ⟨2, _⟩ => show win1_0.index t (2 : Fin 3) * 128 + 1 * (64 * ((j 2).val / 64) + d.val) = 64 * ((win1_3.index t (2 : Fin 3) * 128 + 1 * (j 2).val) / 64) + d.val; omega
  have hk : ∀ (k' : Fin 2048) (d : Fin 64), ((cfg1.win 1).blk t).view.emb (ix3 0 k' (lane (j 2) d))
      = ix3 ((((cfg1.win 3).blk t).view.emb j) 0) k' (col (headOf ((((cfg1.win 3).blk t).view.emb j) 2)) d) := by
    intro k' d
    have hd : d.val < 64 := d.isLt
    funext a; apply Fin.ext
    match a with
    | ⟨0, _⟩ => show win1_1.index t (0 : Fin 3) * 1 + 1 * 0 = win1_3.index t (0 : Fin 3) * 1 + 1 * (j 0).val; omega
    | ⟨1, _⟩ => show win1_1.index t (1 : Fin 3) * 2048 + 1 * k'.val = k'.val; omega
    | ⟨2, _⟩ => show win1_1.index t (2 : Fin 3) * 128 + 1 * (64 * ((j 2).val / 64) + d.val) = 64 * ((win1_3.index t (2 : Fin 3) * 128 + 1 * (j 2).val) / 64) + d.val; omega
  have hv : ∀ (k' : Fin 2048), ((cfg1.win 2).blk t).view.emb (ix3 0 k' (j 2))
      = ix3 ((((cfg1.win 3).blk t).view.emb j) 0) k' ((((cfg1.win 3).blk t).view.emb j) 2) := by
    intro k'
    funext a; apply Fin.ext
    match a with
    | ⟨0, _⟩ => show win1_2.index t (0 : Fin 3) * 1 + 1 * 0 = win1_3.index t (0 : Fin 3) * 1 + 1 * (j 0).val; omega
    | ⟨1, _⟩ => show win1_2.index t (1 : Fin 3) * 2048 + 1 * k'.val = k'.val; omega
    | ⟨2, _⟩ => show win1_2.index t (2 : Fin 3) * 128 + 1 * (j 2).val = win1_3.index t (2 : Fin 3) * 128 + 1 * (j 2).val; omega
  exact congr (congr (congrArg (head (n := 2048) (dh := 64))
      (funext fun d => congrArg (V c main_v11_0 : S2x2048x1024.Idx → EReal) (hq d)))
      (funext fun k' => funext fun d => congrArg (V c main_v11_1 : S2x2048x1024.Idx → EReal) (hk k' d)))
      (funext fun k' => congrArg (V c main_v11_2 : S2x2048x1024.Idx → EReal) (hv k'))

/-- An index of the array is in point `t`'s block iff each coordinate is in the block's range on its axis. -/
theorem a_mem (t : Fin cfg1.N) (i : S2x2048x1024.Idx) :
    i ∈ ((cfg1.win 3).blk t).view.set ↔ ∀ a : Fin 3, win1_3.index t a * S1x512x128.size a ≤ (i a).val
      ∧ (i a).val < win1_3.index t a * S1x512x128.size a + S1x512x128.size a := by
  show i ∈ ((View.whole main_v12).slice (win1_3.rect t)).set ↔ _
  rw [View.set_slice_whole, Rect.mem_set_unit]
  exact Iff.rfl

/-- Row `n`, column `j` of batch `b` is in the block of grid point (b, j / 128, n / 512). -/
theorem a_cover (i : S2x2048x1024.Idx) : ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 1024 := (i 2).isLt
  obtain ⟨t, ht⟩ := a_onto ⟨(i 0).val, by omega⟩ ⟨(i 1).val / 512, by omega⟩ ⟨(i 2).val / 128, by omega⟩
  have q0 : win1_3.index t (0 : Fin 3) = (i 0).val := congrFun ht 0
  have q1 : win1_3.index t (1 : Fin 3) = (i 1).val / 512 := congrFun ht 1
  have q2 : win1_3.index t (2 : Fin 3) = (i 2).val / 128 := congrFun ht 2
  refine ⟨t, flush1_3 t, ?_⟩
  rw [a_mem]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 128 ≤ (i 2).val ∧ (i 2).val < win1_3.index t (2 : Fin 3) * 128 + 128; omega

/-- The attention output array after the region. -/
theorem a_array (c : Dev nD) :
    (dat1 V c).arrAt 3 cfg1.N = attn (V c main_v11_0 : S2x2048x1024.Idx → EReal) (V c main_v11_1 : S2x2048x1024.Idx → EReal)
      (V c main_v11_2 : S2x2048x1024.Idx → EReal) :=
  (dat1 V c).arrAt_eq_of_cover 3 _ (fun t _ => a_flushed V c t) a_cover

end Cert.Attention.Arrays

end
-- ==== Proof.KernelValue.lean ====
/-
  The result of the idealized program as one function of its three arguments. The last region leaves the dense layer of
  the attention output against the transposed output weight; the second leaves attention over the query, key and value
  arrays; the first leaves those as dense layers of the activations against the three thirds of the fused weight; and no
  region or host operation touches a weight operand after the host operations wrote it. Composed: the whole layer.
-/
import proofs.«173302_j45131516346804_1_alg».proof.Proof.Gen.KernelIdeal.Frame
import proofs.«173302_j45131516346804_1_alg».proof.Proof.Spec
import proofs.«173302_j45131516346804_1_alg».proof.Proof.Weights
import proofs.«173302_j45131516346804_1_alg».proof.Proof.ProjArrays
import proofs.«173302_j45131516346804_1_alg».proof.Proof.OutArray
import proofs.«173302_j45131516346804_1_alg».proof.Proof.AttnArray

noncomputable section

namespace Cert.Attention.KernelValue

open Cert.KernelIdeal Cert.KernelIdeal.Gen
open Idealize.ShloMosaic Idealize.ShloMosaic.ValueIdx Idealize.ShloMosaic.TcCoe Idealize.SL.Sem

variable (m : (ℓ : Loc nD τ sig) → Buf (Elt Ideal) ℓ) (ρ : Dev nD → PrngReg)

/-- The query array at the second region's entry. -/
theorem q_val (c : Dev nD) : (V2 m ρ c main_v11_0 : S2x2048x1024.Idx → EReal)
    = dense (m ((c.tc : Thread nD τ).loc main_arg0)) (third (m ((c.tc : Thread nD τ).loc main_arg1)) 0) := by
  refine ((W2_arr m ρ c 4).trans (Arrays.q_array (V1 m ρ) c)).trans ?_
  rw [Weights.x_eq, Weights.wq_eq]

/-- The key array at the second region's entry. -/
theorem k_val (c : Dev nD) : (V2 m ρ c main_v11_1 : S2x2048x1024.Idx → EReal)
    = dense (m ((c.tc : Thread nD τ).loc main_arg0)) (third (m ((c.tc : Thread nD τ).loc main_arg1)) 1) := by
  refine ((W2_arr m ρ c 5).trans (Arrays.k_array (V1 m ρ) c)).trans ?_
  rw [Weights.x_eq, Weights.wk_eq]

/-- The value array at the second region's entry. -/
theorem v_val (c : Dev nD) : (V2 m ρ c main_v11_2 : S2x2048x1024.Idx → EReal)
    = dense (m ((c.tc : Thread nD τ).loc main_arg0)) (third (m ((c.tc : Thread nD τ).loc main_arg1)) 2) := by
  refine ((W2_arr m ρ c 6).trans (Arrays.v_array (V1 m ρ) c)).trans ?_
  rw [Weights.x_eq, Weights.wv_eq]

/-- The output-weight operand reaches the last region as the host operations wrote it: neither earlier region has it
    among its arrays. -/
theorem wp_val (c : Dev nD) : (V3 m ρ c main_v10 : S1024x1024.Idx → EReal) = tr (m ((c.tc : Thread nD τ).loc main_arg2)) :=
  (W3_of_ne m ρ c main_v10 (by decide)).trans ((W2_of_ne m ρ c main_v10 (by decide)).trans (Weights.wp_eq m ρ c))

/-- The attention output array at the last region's entry. -/
theorem a_val (c : Dev nD) : (V3 m ρ c main_v12 : S2x2048x1024.Idx → EReal)
    = attn (dense (m ((c.tc : Thread nD τ).loc main_arg0)) (third (m ((c.tc : Thread nD τ).loc main_arg1)) 0))
        (dense (m ((c.tc : Thread nD τ).loc main_arg0)) (third (m ((c.tc : Thread nD τ).loc main_arg1)) 1))
        (dense (m ((c.tc : Thread nD τ).loc main_arg0)) (third (m ((c.tc : Thread nD τ).loc main_arg1)) 2)) := by
  refine ((W3_arr m ρ c 3).trans (Arrays.a_array (V2 m ρ) c)).trans ?_
  rw [q_val, k_val, v_val]

/-- THE RESULT: after the last region the result buffer holds the whole layer of the launch arrays. -/
theorem result (c : Dev nD) : (W4 m ρ c (Proc.devRef .tc main_v13) : S2x2048x1024.Idx → EReal)
    = layer (m ((c.tc : Thread nD τ).loc main_arg0)) (m ((c.tc : Thread nD τ).loc main_arg1)) (m ((c.tc : Thread nD τ).loc main_arg2)) := by
  refine ((W4_arr m ρ c 2).trans (Arrays.o_array (V3 m ρ) c)).trans ?_
  rw [a_val, wp_val]
  rfl

end Cert.Attention.KernelValue

end
-- ==== Proof.RefQkv.lean ====
/-
  The three projections of the reference, read in head-major layout.

  The reference forms the fused product x · wᵀ : [2, 2048, 3072], views its last axis as (third, head, lane) = (3, 16, 64),
  brings the third to the front, cuts the three thirds apart and swaps the row and head axes. Entry (b, h, n, d) of the
  t-th resulting array is therefore entry (b, n, 1024·t + 64·h + d) of the fused product, that is entry (b, n, 64·h + d)
  of the dense layer of x against the t-th third of the weight. Only index arithmetic is involved: a flat row-major
  position is split by division and remainder, and the bounds of the coordinates decide every such equation.
-/
import proofs.«173302_j45131516346804_1_alg».proof.Proof.Gen.ReferenceIdeal.Read
import proofs.«173302_j45131516346804_1_alg».proof.Proof.Spec

noncomputable section

open scoped BigOperators

namespace Cert.Attention.Ref

open Cert.ReferenceIdeal Cert.ReferenceIdeal.Read Cert.ReferenceIdeal.Gen Idealize.ShloMosaic Idealize.ShloMosaic.ValueIdx
open Cert.Attention

/-- The activations, the fused weight and the output weight, as the reference's argument types. -/
abbrev XAct : Type := (⟨S2x2048x1024, .f32⟩ : BufTy).Contents (Elt Ideal)
abbrev XFused : Type := (⟨S3072x1024, .f32⟩ : BufTy).Contents (Elt Ideal)
abbrev XSq : Type := (⟨S1024x1024, .f32⟩ : BufTy).Contents (Elt Ideal)

variable (x0 : XAct) (x1 : XFused)

/-- The fused product at (b, n, j): the inner product of row (b, n) of x with row j of the fused weight. -/
theorem fused_apply (b : Fin 2) (n : Fin 2048) (j : Fin 3072) :
    val_main_v0 (F := Ideal) x0 x1 (ix3 b n j) = ∑ c : Fin 1024, x0 (ix3 b n c) * x1 (ix2 j c) := by
  rw [val_main_v0_apply]
  refine Finset.sum_congr rfl fun c _ => ?_
  have el : lidx_main_v0 (ix3 b n j) c = ix3 b n c := by
    funext a; match a with | ⟨0, _⟩ => rfl | ⟨1, _⟩ => rfl | ⟨2, _⟩ => rfl
  have er : ridx_main_v0 (ix3 b n j) c = ix2 j c := by
    funext a; match a with | ⟨0, _⟩ => rfl | ⟨1, _⟩ => rfl
  rw [el, er]

/-- The five-axis view at (b, n, t, h, d) is the fused product at column 1024·t + 64·h + d. -/
theorem split_apply (b : Fin 2) (n : Fin 2048) (t : Fin 3) (h : Fin 16) (d : Fin 64) :
    val_main_v1 (F := Ideal) x0 x1 (ix5 b n t h d) = val_main_v0 (F := Ideal) x0 x1 (ix3 b n (wrow t (col h d))) := by
  rw [val_main_v1_apply]
  refine congrArg _ ?_
  have hb := b.isLt; have hn := n.isLt; have ht := t.isLt; have hh := h.isLt; have hd := d.isLt
  funext a
  match a with
  | ⟨0, _⟩ =>
    refine Fin.ext ?_
    show ((((b.val * 2048 + n.val) * 3 + t.val) * 16 + h.val) * 64 + d.val) / 6291456 = b.val
    omega
  | ⟨1, _⟩ =>
    refine Fin.ext ?_
    show ((((b.val * 2048 + n.val) * 3 + t.val) * 16 + h.val) * 64 + d.val) / 3072 % 2048 = n.val
    omega
  | ⟨2, _⟩ =>
    refine Fin.ext ?_
    show ((((b.val * 2048 + n.val) * 3 + t.val) * 16 + h.val) * 64 + d.val) % 3072 = 1024 * t.val + (64 * h.val + d.val)
    omega

/-- With the third in front. -/
theorem front_apply (t : Fin 3) (b : Fin 2) (n : Fin 2048) (h : Fin 16) (d : Fin 64) :
    val_main_v2 (F := Ideal) x0 x1 (ix5 t b n h d) = val_main_v1 (F := Ideal) x0 x1 (ix5 b n t h d) := by
  rw [val_main_v2_apply]
  refine congrArg _ ?_
  funext a; match a with | ⟨0, _⟩ => rfl | ⟨1, _⟩ => rfl | ⟨2, _⟩ => rfl | ⟨3, _⟩ => rfl | ⟨4, _⟩ => rfl

/-- A four-axis position (b, n, h, d), as a one-slab five-axis array is cut into it. -/
theorem unslab_idx (b : Fin 2) (n : Fin 2048) (h : Fin 16) (d : Fin 64) :
    idx_main_v4 (ix4 b n h d) = ix5 (0 : Fin 1) b n h d := by
  have hb := b.isLt; have hn := n.isLt; have hh := h.isLt; have hd := d.isLt
  funext a
  match a with
  | ⟨0, _⟩ => rfl
  | ⟨1, _⟩ =>
    refine Fin.ext ?_
    show (((b.val * 2048 + n.val) * 16 + h.val) * 64 + d.val) / 2097152 % 2 = b.val
    omega
  | ⟨2, _⟩ =>
    refine Fin.ext ?_
    show (((b.val * 2048 + n.val) * 16 + h.val) * 64 + d.val) / 1024 % 2048 = n.val
    omega
  | ⟨3, _⟩ =>
    refine Fin.ext ?_
    show (((b.val * 2048 + n.val) * 16 + h.val) * 64 + d.val) / 64 % 16 = h.val
    omega
  | ⟨4, _⟩ =>
    refine Fin.ext ?_
    show (((b.val * 2048 + n.val) * 16 + h.val) * 64 + d.val) % 64 = d.val
    omega

/-- The first third, in [batch, row, head, lane] layout. -/
theorem q_rows_apply (b : Fin 2) (n : Fin 2048) (h : Fin 16) (d : Fin 64) :
    val_main_v4 (F := Ideal) x0 x1 (ix4 b n h d) = val_main_v2 (F := Ideal) x0 x1 (ix5 (0 : Fin 3) b n h d) := by
  rw [val_main_v4_apply, val_main_v3_apply, unslab_idx]
  refine congrArg _ ?_
  funext a; match a with | ⟨0, _⟩ => rfl | ⟨1, _⟩ => rfl | ⟨2, _⟩ => rfl | ⟨3, _⟩ => rfl | ⟨4, _⟩ => rfl

/-- The second third. -/
theorem k_rows_apply (b : Fin 2) (n : Fin 2048) (h : Fin 16) (d : Fin 64) :
    val_main_v6 (F := Ideal) x0 x1 (ix4 b n h d) = val_main_v2 (F := Ideal) x0 x1 (ix5 (1 : Fin 3) b n h d) := by
  rw [val_main_v6_apply, val_main_v5_apply, show idx_main_v6 (ix4 b n h d) = idx_main_v4 (ix4 b n h d) from rfl, unslab_idx]
  refine congrArg _ ?_
  funext a; match a with | ⟨0, _⟩ => rfl | ⟨1, _⟩ => rfl | ⟨2, _⟩ => rfl | ⟨3, _⟩ => rfl | ⟨4, _⟩ => rfl

/-- The last third. -/
theorem v_rows_apply (b : Fin 2) (n : Fin 2048) (h : Fin 16) (d : Fin 64) :
    val_main_v8 (F := Ideal) x0 x1 (ix4 b n h d) = val_main_v2 (F := Ideal) x0 x1 (ix5 (2 : Fin 3) b n h d) := by
  rw [val_main_v8_apply, val_main_v7_apply, show idx_main_v8 (ix4 b n h d) = idx_main_v4 (ix4 b n h d) from rfl, unslab_idx]
  refine congrArg _ ?_
  funext a; match a with | ⟨0, _⟩ => rfl | ⟨1, _⟩ => rfl | ⟨2, _⟩ => rfl | ⟨3, _⟩ => rfl | ⟨4, _⟩ => rfl

/-- Entry (b, n, 64·h + d) of the dense layer of x against the t-th third of the weight, from the five-axis view. -/
theorem third_apply (t : Fin 3) (b : Fin 2) (n : Fin 2048) (h : Fin 16) (d : Fin 64) :
    val_main_v2 (F := Ideal) x0 x1 (ix5 t b n h d) = dense x0 (third x1 t) (ix3 b n (col h d)) := by
  rw [front_apply, split_apply, fused_apply]
  rfl

/-- The queries, head-major: entry (b, h, n, d) is Q[b, n, 64·h + d]. -/
theorem q_apply (b : Fin 2) (h : Fin 16) (n : Fin 2048) (d : Fin 64) :
    val_main_v9 (F := Ideal) x0 x1 (ix4 b h n d) = dense x0 (third x1 0) (ix3 b n (col h d)) := by
  rw [val_main_v9_apply, show idx_main_v9 (ix4 b h n d) = ix4 b n h d from by
    funext a; match a with | ⟨0, _⟩ => rfl | ⟨1, _⟩ => rfl | ⟨2, _⟩ => rfl | ⟨3, _⟩ => rfl]
  rw [q_rows_apply, third_apply]

/-- The keys, head-major. -/
theorem k_apply (b : Fin 2) (h : Fin 16) (n : Fin 2048) (d : Fin 64) :
    val_main_v10 (F := Ideal) x0 x1 (ix4 b h n d) = dense x0 (third x1 1) (ix3 b n (col h d)) := by
  rw [val_main_v10_apply, show idx_main_v10 (ix4 b h n d) = ix4 b n h d from by
    funext a; match a with | ⟨0, _⟩ => rfl | ⟨1, _⟩ => rfl | ⟨2, _⟩ => rfl | ⟨3, _⟩ => rfl]
  rw [k_rows_apply, third_apply]

/-- The values, head-major. -/
theorem v_apply (b : Fin 2) (h : Fin 16) (n : Fin 2048) (d : Fin 64) :
    val_main_v11 (F := Ideal) x0 x1 (ix4 b h n d) = dense x0 (third x1 2) (ix3 b n (col h d)) := by
  rw [val_main_v11_apply, show idx_main_v11 (ix4 b h n d) = ix4 b n h d from by
    funext a; match a with | ⟨0, _⟩ => rfl | ⟨1, _⟩ => rfl | ⟨2, _⟩ => rfl | ⟨3, _⟩ => rfl]
  rw [v_rows_apply, third_apply]

end Cert.Attention.Ref

end
-- ==== Proof.RefSoftmax.lean ====
/-
  The reference's attention weights and head outputs, read at coordinates.

  For batch b, head h and query row n, the reference's scores against the key rows k are the scaled inner products of
  the head's query lanes with the head's key lanes; the row's largest score is a fold of max from -∞ along the key axis
  (joined with -∞ once more); the weights are the exponentials of the scores less that largest, divided by their sum
  (a sum started from the zero word, which adds nothing); the head's output at lane d is the weighted sum of the value
  column 64·h + d. Each array of the reference is identified with the corresponding function of the specification,
  one operation at a time. Nothing here uses a property of max, exp or division: only which entries are combined.
-/
import proofs.«173302_j45131516346804_1_alg».proof.Proof.RefQkv

noncomputable section

open scoped BigOperators

namespace Cert.Attention.Ref

open Cert.ReferenceIdeal Cert.ReferenceIdeal.Read Cert.ReferenceIdeal.Gen Idealize.ShloMosaic Idealize.ShloMosaic.ValueIdx
open Cert.Attention

variable (x0 : XAct) (x1 : XFused)

/-- The three dense layers of the specification. -/
abbrev Qs : Act := dense x0 (third x1 0)
abbrev Ks : Act := dense x0 (third x1 1)
abbrev Vs : Act := dense x0 (third x1 2)

/-- The scores of query row n of head h in batch b against every key row. -/
def srow (b : Fin 2) (h : Fin 16) (n : Fin 2048) : Fin 2048 → EReal :=
  score (fun d => Qs x0 x1 (ix3 b n (col h d))) (fun k d => Ks x0 x1 (ix3 b k (col h d)))

/-- The scaled scores. -/
theorem scores_apply (b : Fin 2) (h : Fin 16) (n k : Fin 2048) :
    val_main_v14 (F := Ideal) x0 x1 (ix4 b h n k) = srow x0 x1 b h n k := by
  rw [val_main_v14_apply, val_main_v12_apply, val_main_v13_apply, val_main_cst_apply]
  show (∑ d : Fin 64, val_main_v9 (F := Ideal) x0 x1 (lidx_main_v12 (ix4 b h n k) d)
      * val_main_v10 (F := Ideal) x0 x1 (ridx_main_v12 (ix4 b h n k) d)) * scale = _
  unfold srow score
  refine congrArg (· * scale) (Finset.sum_congr rfl fun d _ => ?_)
  have el : lidx_main_v12 (ix4 b h n k) d = ix4 b h n d := by
    funext a; match a with | ⟨0, _⟩ => rfl | ⟨1, _⟩ => rfl | ⟨2, _⟩ => rfl | ⟨3, _⟩ => rfl
  have er : ridx_main_v12 (ix4 b h n k) d = ix4 b h k d := by
    funext a; match a with | ⟨0, _⟩ => rfl | ⟨1, _⟩ => rfl | ⟨2, _⟩ => rfl | ⟨3, _⟩ => rfl
  rw [el, er, q_apply, k_apply]

/-- The key axis of the score array may be folded away. -/
theorem keyAxis : S2x16x2048x2048.Reduces [3] S2x16x2048 := by decide

/-- The position (b, h, n) with key coordinate k inserted is (b, h, n, k). -/
theorem keyAxis_lift (b : Fin 2) (h : Fin 16) (n k : Fin 2048) :
    keyAxis.lift (ix3 b h n) k = ix4 b h n k := by
  funext a
  match a with
  | ⟨0, _⟩ => exact Fin.ext rfl
  | ⟨1, _⟩ => exact Fin.ext rfl
  | ⟨2, _⟩ => exact Fin.ext rfl
  | ⟨3, _⟩ => exact Fin.ext rfl

/-- A maximum-reduction of any array of that shape along its key axis, at (b, h, n): the fold of max over the key
    coordinates, from the initial value. -/
theorem maxfold_apply (y : S2x16x2048x2048.Idx → EReal) (c : S_.Idx → EReal) (b : Fin 2) (h : Fin 16) (n : Fin 2048) :
    Host.reduce (FloatOps.maximumf (F := Ideal) (φ := .f32)) y c reducesTo_S2x16x2048x2048_S2x16x2048_d3 h_S_ (ix3 b h n)
      = (Finset.univ : Finset (Fin 2048)).fold max (c (Shape.Idx.first h_S_)) (fun k => y (ix4 b h n k)) := by
  refine (Host.reduce_eq_fold_single (FloatOps.maximumf (F := Ideal) (φ := .f32)) y c
    reducesTo_S2x16x2048x2048_S2x16x2048_d3 keyAxis h_S_ (ix3 b h n)).trans ?_
  have hf : (y ∘ keyAxis.lift (ix3 b h n)) = fun k : Fin 2048 => y (ix4 b h n k) :=
    funext fun k => congrArg y (keyAxis_lift b h n k)
  rw [hf]
  rfl

/-- The running maximum along the key axis, from -∞. -/
theorem fold_apply (b : Fin 2) (h : Fin 16) (n : Fin 2048) :
    val_main_v15 (F := Ideal) x0 x1 (ix3 b h n)
      = (Finset.univ : Finset (Fin 2048)).fold max negInf (srow x0 x1 b h n) := by
  unfold val_main_v15
  have hy : ∀ k : Fin 2048, val_main_v14 (F := Ideal) x0 x1 (ix4 b h n k) = srow x0 x1 b h n k :=
    fun k => scores_apply x0 x1 b h n k
  generalize val_main_v14 (F := Ideal) x0 x1 = y at hy
  refine (maxfold_apply y (val_main_cst_0 (F := Ideal)) b h n).trans ?_
  rw [show (fun k : Fin 2048 => y (ix4 b h n k)) = srow x0 x1 b h n from funext hy]
  rfl

/-- The row's largest score. -/
theorem rowmax_apply (b : Fin 2) (h : Fin 16) (n : Fin 2048) :
    val_main_v17 (F := Ideal) x0 x1 (ix3 b h n) = rowmax (srow x0 x1 b h n) := by
  rw [val_main_v17_apply, val_main_v16_apply, val_main_cst_1_apply, fold_apply]
  rfl

/-- The largest score, repeated along the key axis. -/
theorem rowmax_bcast_apply (b : Fin 2) (h : Fin 16) (n k : Fin 2048) :
    val_main_v19 (F := Ideal) x0 x1 (ix4 b h n k) = rowmax (srow x0 x1 b h n) := by
  rw [val_main_v19_apply, val_main_v18_apply,
    show idx_main_v18 (idx_main_v19 (ix4 b h n k)) = ix3 b h n from by
      funext a; match a with | ⟨0, _⟩ => rfl | ⟨1, _⟩ => rfl | ⟨2, _⟩ => rfl]
  exact rowmax_apply x0 x1 b h n

/-- The unnormalised weights. -/
theorem wexp_apply (b : Fin 2) (h : Fin 16) (n k : Fin 2048) :
    val_main_v21 (F := Ideal) x0 x1 (ix4 b h n k) = wexp (srow x0 x1 b h n) k := by
  rw [val_main_v21_apply, val_main_v20_apply, scores_apply, rowmax_bcast_apply]
  rfl

/-- Their sum along the key axis. -/
theorem wsum_apply (b : Fin 2) (h : Fin 16) (n : Fin 2048) :
    val_main_v22 (F := Ideal) x0 x1 (ix3 b h n) = ∑ k : Fin 2048, wexp (srow x0 x1 b h n) k := by
  rw [val_main_v22_apply, val_main_cst_2_apply]
  show Ideal.ofBits .f32 0x00000000#32 + _ = _
  rw [Ideal.ofBits_zero_f32, zero_add]
  refine Finset.sum_congr rfl fun k _ => ?_
  rw [show idx_main_v22 (ix3 b h n) k = ix4 b h n k from by
    funext a; match a with | ⟨0, _⟩ => rfl | ⟨1, _⟩ => rfl | ⟨2, _⟩ => rfl | ⟨3, _⟩ => rfl]
  exact wexp_apply x0 x1 b h n k

/-- The softmax weights. -/
theorem smax_apply (b : Fin 2) (h : Fin 16) (n k : Fin 2048) :
    val_main_v25 (F := Ideal) x0 x1 (ix4 b h n k) = smax (srow x0 x1 b h n) k := by
  rw [val_main_v25_apply, wexp_apply, val_main_v24_apply, val_main_v23_apply,
    show idx_main_v23 (idx_main_v24 (ix4 b h n k)) = ix3 b h n from by
      funext a; match a with | ⟨0, _⟩ => rfl | ⟨1, _⟩ => rfl | ⟨2, _⟩ => rfl]
  rw [wsum_apply]
  rfl

/-- One head's output at lane d: the weighted sum of value column 64·h + d. -/
theorem head_apply (b : Fin 2) (h : Fin 16) (n : Fin 2048) (d : Fin 64) :
    val_main_v26 (F := Ideal) x0 x1 (ix4 b h n d)
      = head (fun d' => Qs x0 x1 (ix3 b n (col h d'))) (fun k d' => Ks x0 x1 (ix3 b k (col h d')))
          (fun k => Vs x0 x1 (ix3 b k (col h d))) := by
  rw [val_main_v26_apply]
  unfold head
  refine Finset.sum_congr rfl fun k _ => ?_
  have el : lidx_main_v26 (ix4 b h n d) k = ix4 b h n k := by
    funext a; match a with | ⟨0, _⟩ => rfl | ⟨1, _⟩ => rfl | ⟨2, _⟩ => rfl | ⟨3, _⟩ => rfl
  have er : ridx_main_v26 (ix4 b h n d) k = ix4 b h k d := by
    funext a; match a with | ⟨0, _⟩ => rfl | ⟨1, _⟩ => rfl | ⟨2, _⟩ => rfl | ⟨3, _⟩ => rfl
  rw [el, er, smax_apply, v_apply]
  rfl

end Cert.Attention.Ref

end
-- ==== Proof.RefLayer.lean ====
/-
  The reference computes the layer of the specification.

  The head outputs, laid out [batch, head, row, lane], are brought back to [batch, row, head, lane] and the last two axes
  are merged: column j of the merged array is lane j mod 64 of head j div 64, and 64·(j div 64) + j mod 64 = j, so the
  merged array is the attention of the specification over the three dense layers. The last operation is the dense layer
  against the transposed output weight.
-/
import proofs.«173302_j45131516346804_1_alg».proof.Proof.RefSoftmax

noncomputable section

open scoped BigOperators

namespace Cert.Attention.Ref

open Cert.ReferenceIdeal Cert.ReferenceIdeal.Read Cert.ReferenceIdeal.Gen Idealize.ShloMosaic Idealize.ShloMosaic.ValueIdx
open Cert.Attention

variable (x0 : XAct) (x1 : XFused)

/-- The lane of a column inside its head. -/
def laneOf (j : Fin 1024) : Fin 64 := ⟨j.val % 64, Nat.mod_lt _ (by decide)⟩

/-- A column is the lane it has inside its head, of the head it belongs to. -/
theorem col_headOf_laneOf (j : Fin 1024) : col (headOf j) (laneOf j) = j :=
  Fin.ext (by show 64 * (j.val / 64) + j.val % 64 = j.val; omega)

/-- Position (b, n, j) of the merged array is position (b, n, j div 64, j mod 64) of the four-axis one. -/
theorem merge_idx (b : Fin 2) (n : Fin 2048) (j : Fin 1024) :
    idx_main_v28 (ix3 b n j) = ix4 b n (headOf j) (laneOf j) := by
  have hb := b.isLt; have hn := n.isLt; have hj := j.isLt
  funext a
  match a with
  | ⟨0, _⟩ =>
    refine Fin.ext ?_
    show ((b.val * 2048 + n.val) * 1024 + j.val) / 2097152 = b.val
    omega
  | ⟨1, _⟩ =>
    refine Fin.ext ?_
    show ((b.val * 2048 + n.val) * 1024 + j.val) / 1024 % 2048 = n.val
    omega
  | ⟨2, _⟩ =>
    refine Fin.ext ?_
    show ((b.val * 2048 + n.val) * 1024 + j.val) / 64 % 16 = j.val / 64
    omega
  | ⟨3, _⟩ =>
    refine Fin.ext ?_
    show ((b.val * 2048 + n.val) * 1024 + j.val) % 64 = j.val % 64
    omega

/-- The merged head outputs are the attention of the specification. -/
theorem attn_apply (b : Fin 2) (n : Fin 2048) (j : Fin 1024) :
    val_main_v28 (F := Ideal) x0 x1 (ix3 b n j) = attn (Qs x0 x1) (Ks x0 x1) (Vs x0 x1) (ix3 b n j) := by
  rw [val_main_v28_apply, merge_idx, val_main_v27_apply,
    show idx_main_v27 (ix4 b n (headOf j) (laneOf j)) = ix4 b (headOf j) n (laneOf j) from by
      funext a; match a with | ⟨0, _⟩ => rfl | ⟨1, _⟩ => rfl | ⟨2, _⟩ => rfl | ⟨3, _⟩ => rfl]
  rw [head_apply, col_headOf_laneOf]
  rfl

/-- As arrays. -/
theorem attn_eq : val_main_v28 (F := Ideal) x0 x1 = attn (Qs x0 x1) (Ks x0 x1) (Vs x0 x1) := by
  funext i
  obtain ⟨b, n, j, rfl⟩ : ∃ (b : Fin 2) (n : Fin 2048) (j : Fin 1024), i = ix3 b n j := ⟨i 0, i 1, i 2, eq_ix3 i⟩
  exact attn_apply x0 x1 b n j

/-- The reference's result is the layer of the specification. -/
theorem ref_eq (x0 : XAct) (x1 : XFused) (x2 : XSq) :
    val_main_v29 (F := Ideal) x0 x1 x2 = layer x0 x1 x2 := by
  funext i
  obtain ⟨b, n, o, rfl⟩ : ∃ (b : Fin 2) (n : Fin 2048) (o : Fin 1024), i = ix3 b n o := ⟨i 0, i 1, i 2, eq_ix3 i⟩
  rw [val_main_v29_apply, attn_eq]
  show _ = ∑ c : Fin 1024, attn (Qs x0 x1) (Ks x0 x1) (Vs x0 x1) (ix3 b n c) * x2 (ix2 o c)
  refine Finset.sum_congr rfl fun c _ => ?_
  have el : lidx_main_v29 (ix3 b n o) c = ix3 b n c := by
    funext a; match a with | ⟨0, _⟩ => rfl | ⟨1, _⟩ => rfl | ⟨2, _⟩ => rfl
  have er : ridx_main_v29 (ix3 b n o) c = ix2 o c := by
    funext a; match a with | ⟨0, _⟩ => rfl | ⟨1, _⟩ => rfl
  rw [el, er]

end Cert.Attention.Ref

end
-- ==== Proof.lean ====
/-
  A multi-head self-attention layer — fused query / key / value projection, scaled dot-product attention with a softmax
  over all keys, output projection — as three pipelined kernels against the same layer written with whole-array
  contractions, equal over the extended reals.

  The kernel side: the program transposes the three thirds of the fused weight and the output weight on the host, then
  runs three regions. The first writes the query, key and value arrays, 512 rows at a time, each a dense layer of the
  activations; the second, per batch, pair of heads and block of 512 query rows, takes each head's scaled scores against
  all 2048 keys, subtracts the row's largest, exponentiates, normalises by the row sum and averages the value columns;
  the third is a dense layer against the transposed output weight. Every block a grid point writes is a box of ONE
  whole-array function, the boxes tile the arrays, so each array ends holding its function, and composed they are
  `Cert.Attention.layer` of the three arguments.
  The reference side: the same operations over arrays laid out [batch, head, row, lane]; reshapes and transposes only
  rename entries (column j is lane j mod 64 of head j div 64), so its result is `Cert.Attention.layer` too.
  No law beyond re-indexing of finite sums joins the two sides — both apply the same operations in the same order to the
  same entries — so the inputs' finiteness is never used. A change of float format is the identity over the extended
  reals, and the ideal pass rewrote nothing, so the idealized kernel is the printed kernel's own text.
-/
import proofs.«173302_j45131516346804_1_alg».proof.Defs
import proofs.«173302_j45131516346804_1_alg».proof.Proof.Gen.Kernel
import proofs.«173302_j45131516346804_1_alg».proof.Proof.Gen.Kernel.Skeleton
import proofs.«173302_j45131516346804_1_alg».proof.Proof.Gen.Kernel.Launch
import proofs.«173302_j45131516346804_1_alg».proof.Proof.Gen.Kernel.Points
import proofs.«173302_j45131516346804_1_alg».proof.Proof.Gen.Kernel.Frame
import proofs.«173302_j45131516346804_1_alg».proof.Proof.Gen.KernelIdeal
import proofs.«173302_j45131516346804_1_alg».proof.Proof.Gen.KernelIdeal.Skeleton
import proofs.«173302_j45131516346804_1_alg».proof.Proof.Gen.KernelIdeal.Launch
import proofs.«173302_j45131516346804_1_alg».proof.Proof.Gen.KernelIdeal.Points
import proofs.«173302_j45131516346804_1_alg».proof.Proof.Gen.KernelIdeal.Frame
import proofs.«173302_j45131516346804_1_alg».proof.Proof.Gen.ReferenceIdeal
import proofs.«173302_j45131516346804_1_alg».proof.Proof.Gen.Pre_finite_inputs
import proofs.«173302_j45131516346804_1_alg».proof.Proof.Gen.ReferenceIdeal.Run
import proofs.«173302_j45131516346804_1_alg».proof.Proof.Gen.ReferenceIdeal.Read
import proofs.«173302_j45131516346804_1_alg».proof.Proof.Spec
import proofs.«173302_j45131516346804_1_alg».proof.Proof.ValueRun
import proofs.«173302_j45131516346804_1_alg».proof.Proof.KernelValue
import proofs.«173302_j45131516346804_1_alg».proof.Proof.RefLayer
import Idealize.ShloMosaic.Adequacy
import Idealize.ShloMosaic.Init

noncomputable section

namespace Cert.Proof

open Idealize.ShloMosaic Idealize.SL.Sem

/-- The printed kernel runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a line of host operations: its run, with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the layer of the specification in their result, from arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Attention.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.Attention.KernelValue.result m ρ c), (h c).2⟩)
      (Cert.Attention.Run.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v29_eq, Cert.Attention.Ref.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
